-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x1024x1024 : Shape := ⟨3, ![1, 1024, 1024]⟩

abbrev nBuf : Space → Nat
  | .hbm => 11
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S4x1024x1024, .bf16⟩
  | .hbm, ⟨10, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .f32⟩
  | .local _ .vmem, ⟨14, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  dot_S1024x1024_S1024x1024_S1024x1024_1_0_0_1_n_n_wf : DotDims.WF S1024x1024 S1024x1024 S1024x1024 [1] [0] [0] [1] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x1024x1024.size a
  hwx0_3 : ∀ i : grid0.Coords, EltTy.bits .bf16 = 32 ∨ (Rect.block (s := S4x1024x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .f32 = 32 ∨ (Rect.block (s := S4x4096x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x1024x1024.size a
  hwx1_3 : ∀ i : grid1.Coords, EltTy.bits .bf16 = 32 ∨ (Rect.block (s := S4x1024x1024) S1x1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S4x4096x1024.size a
  hwx1_4 : ∀ i : grid1.Coords, EltTy.bits .f32 = 32 ∨ (Rect.block (s := S4x4096x1024) S1x1024x1024.size (cc1_transform_4 i) (hinb1_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x1024x1024, .f32⟩
  | .hbm, ⟨11, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  dot_S4x4096x1024_S1024x1024_S4x4096x1024_2_0_01_1_n_n_wf : DotDims.WF S4x4096x1024 S1024x1024 S4x4096x1024 [2] [0] [0, 1] [1] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.K.Cases0.lean ====
import proofs.«151706_j103079215338_2_alg».proof.Proof.Gen.Kernel.Launch
import proofs.«151706_j103079215338_2_alg».proof.Proof.Gen.Kernel.Skeleton
import proofs.«151706_j103079215338_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first pallas_call (the key/value accumulation): blocks, control cases, scratch

The grid is 4 × 4: point `t` works on batch `t / 4` and on row tile `t % 4` (1024 rows of the 4096). The body adds the
tile's contribution `keyᵀ · value` to an accumulator kept in a scratch buffer across the four tiles of a batch: the
accumulator is zeroed on tile 0 and, on tile 3, written to the batch's output block. So the body runs in one of three
ways, by the tile number: 0 (zero, then accumulate), 1 or 2 (accumulate), 3 (accumulate, then store the output).
Everything here is stated at a parameter `V`: what the core's buffers hold when the region is entered.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it there:
    where it was not fetched the block index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it there:
    where it was not fetched the block index has not moved, so the block of the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it there:
    where it was not fetched the block index has not moved, so the block of the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- "This is the first row tile of its batch": the condition under which the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last row tile of its batch": the condition under which the output block is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle: the inputs never, the output except on the last tile of a batch -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0
/-- The accumulator as a view: what it holds is stated through it. -/
abbrev VS0 : View sig .tc .vmem S1024x1024 .f32 := scM0.view
/-- One staging buffer of the output window, through which its contents are stated (the choice does not matter). -/
abbrev VO0_3 : View sig .tc .vmem S1x1024x1024 .bf16 := (Memref.whole cc0_stg3_0 : Memref sig .tc .vmem S1x1024x1024 .bf16).view

/-- The scoped buffers of the core that this region neither stages through nor uses: the other region's staging
    buffers, each whole at some contents. They ride through every point untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the region may use besides its windows: the accumulator at some contents, the bystanders, and the core's
    generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.Kernel.Hand

end
-- ==== Proof.K.Run0A.lean ====
import proofs.«151706_j103079215338_2_alg».proof.Proof.K.Cases0

/-!
# The accumulation body run on the first row tile of a batch

The body's triple on whole memrefs, by symbolic execution of its memory operations: the inputs are handed back as
found, and each buffer the body stores into ends with the body's stores written over what it held — the list of
those stores (last first) is found by the run itself.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The zeroing branch taken, the storing branch not: the accumulator, at anything going in, is zeroed, the tile's
    contribution added and stored; the output's buffer (`xi3`) is not touched. -/
noncomputable def kernelRun0_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i)
    (x0 : Vec F S1x1024x1024 .f32) (x1 x2 : Vec F S1024x1024 .bf16) :
    { LS0 : List (View.Piece (Elt F) S1024x1024 .f32) //
      ∀ (xi3 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨?_, fun xi3 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Run0B.lean ====
import proofs.«151706_j103079215338_2_alg».proof.Proof.K.Cases0

/-!
# The accumulation body run on a middle row tile (tiles 1 and 2 of a batch)

The body's triple on whole memrefs, by symbolic execution of its memory operations: the inputs are handed back as
found, and each buffer the body stores into ends with the body's stores written over what it held — the list of
those stores (last first) is found by the run itself.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Neither branch taken: the body reads the three input blocks and the accumulator `xs0` and stores the new
    accumulator; the output's buffer (`xi3`) is not touched. -/
noncomputable def kernelRun0_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i)
    (x0 : Vec F S1x1024x1024 .f32) (x1 x2 : Vec F S1024x1024 .bf16) (xs0 : Vec F S1024x1024 .f32) :
    { LS0 : List (View.Piece (Elt F) S1024x1024 .f32) //
      ∀ (xi3 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨?_, fun xi3 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Run0C.lean ====
import proofs.«151706_j103079215338_2_alg».proof.Proof.K.Cases0

/-!
# The accumulation body run on the last row tile of a batch

The body's triple on whole memrefs, by symbolic execution of its memory operations: the inputs are handed back as
found, and each buffer the body stores into ends with the body's stores written over what it held — the list of
those stores (last first) is found by the run itself.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The storing branch taken, the zeroing branch not: the tile's contribution is added to the accumulator `xs0` and
    stored, and the finished accumulator is stored into the output's buffer (at anything going in). -/
noncomputable def kernelRun0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i)
    (x0 : Vec F S1x1024x1024 .f32) (x1 x2 : Vec F S1024x1024 .bf16) (xs0 : Vec F S1024x1024 .f32) :
    Σ' (L3 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Region0.lean ====
import proofs.«151706_j103079215338_2_alg».proof.Proof.K.Run0A
import proofs.«151706_j103079215338_2_alg».proof.Proof.K.Run0B
import proofs.«151706_j103079215338_2_alg».proof.Proof.K.Run0C

/-!
# The first pallas_call: what each point leaves, the invariant, the body obligation

Per way of running (first tile, middle tile, last tile of a batch) the stores the run found are read back as the
contents of the accumulator and, on the last tile, of the output's buffer. Point by point, `outsAt0` carries the
accumulator from one point to the next; the region's invariant holds the accumulator at what the point before left
(before the first point: at anything); the proof data put the output's buffer at what the last tile stored.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each way of running leaves -/

/-- On the first tile the run's stores into the accumulator cover it. -/
theorem scover0_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i) (x0 : Vec F S1x1024x1024 .f32) (x1 x2 : Vec F S1024x1024 .bf16) (y : S1024x1024.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x1024.size (by sl_kernel_rfl) y
/-- What the first tile leaves in the accumulator: its stores read back. -/
def sacc0_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i) (x0 : Vec F S1x1024x1024 .f32) (x1 x2 : Vec F S1024x1024 .bf16) : Vec F S1024x1024 .f32 :=
  VS0.read (Elt F) (VS0.writes (Elt F) VS0.junk (kernelRun0_A c i arg2 harg2 arg3 harg3 arg4 harg4 arg5 harg5 arg6 harg6 hc0 hc1 x0 x1 x2).1)

/-- On a middle tile the run's one store into the accumulator covers it. -/
theorem scover0_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i) (x0 : Vec F S1x1024x1024 .f32) (x1 x2 : Vec F S1024x1024 .bf16) (xs0 : Vec F S1024x1024 .f32) (y : S1024x1024.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S1024x1024.size (by sl_kernel_rfl) y
/-- What a middle tile leaves in the accumulator. -/
def sacc0_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i) (x0 : Vec F S1x1024x1024 .f32) (x1 x2 : Vec F S1024x1024 .bf16) (xs0 : Vec F S1024x1024 .f32) : Vec F S1024x1024 .f32 :=
  VS0.read (Elt F) (VS0.writes (Elt F) VS0.junk (kernelRun0_B c i arg2 harg2 arg3 harg3 arg4 harg4 arg5 harg5 arg6 harg6 hc0 hc1 x0 x1 x2 xs0).1)

/-- On the last tile the run's store into the output's buffer covers it, -/
theorem cover0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) (y : S1x1024x1024.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1024x1024.size (by sl_kernel_rfl) y
/-- and what it leaves there: the finished accumulator, in the output's format. -/
def out0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) : Vec F S1x1024x1024 .bf16 :=
  VO0_3.read (Elt F) (VO0_3.writes (Elt F) VO0_3.junk (kernelRun0_C c i arg2 harg2 arg3 harg3 arg4 harg4 arg5 harg5 arg6 harg6 hc0 hc1 x0 x1 x2 xs0).1)
/-- Its store into the accumulator covers it too, -/
theorem scover0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) (y : S1024x1024.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x1024.size (by sl_kernel_rfl) y
/-- and leaves the batch's whole sum there. -/
def sacc0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) : Vec F S1024x1024 .f32 :=
  VS0.read (Elt F) (VS0.writes (Elt F) VS0.junk (kernelRun0_C c i arg2 harg2 arg3 harg3 arg4 harg4 arg5 harg5 arg6 harg6 hc0 hc1 x0 x1 x2 xs0).2.1)

/-- The output component at a point that stores nothing into the output's buffer: a placeholder nothing consults
    (there the buffer is neither written back nor read at the next point). -/
def idleOut0 : Vec F S1x1024x1024 .bf16 := VO0_3.read (Elt F) VO0_3.junk

/-! ## Point by point -/

/-- What the output's staging buffer and the accumulator hold after the body at position `n`: the way of running that the
    tile number selects, on the point's input blocks, a later tile of a batch starting from the accumulator the point
    before left. -/
def outsAt0 (c : Dev nD) : (n : ℕ) → n < cfg0.N → Vec F S1x1024x1024 .bf16 × Vec F S1024x1024 .f32
  | 0, hn => (idleOut0, sacc0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (idleOut0, sacc0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sacc0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sacc0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a first tile. -/
theorem outsAt0_A (c : Dev nD) (t : Fin cfg0.N) (h0 : t.val % 4 = 0) (h1 : ¬t.val % 4 = 3) :
    outsAt0 V c t.val t.isLt = (idleOut0, sacc0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle tile: over what the point before left. -/
theorem outsAt0_B (c : Dev nD) (t : Fin cfg0.N) (h0 : ¬t.val % 4 = 0) (h1 : ¬t.val % 4 = 3) :
    outsAt0 V c t.val t.isLt = (idleOut0, sacc0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sacc0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point what the region may use, at anything; afterwards the accumulator at what
    the point before left in it, the bystanders and the generator register as they are. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The pipeline's proof data on core `c`: the arrays as the region finds them; after the body at point `t` each input's
    buffer at its block and the output's at `outsAt0`'s first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' memrefs hold their blocks; the tile number says which way the body runs; the
    invariant hands it the accumulator at what the point before left (at anything on a first tile) and takes it back
    at this point's contents; an output buffer the point does not store into goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 16 := lt_of_lt_of_eq t.isLt (show cfg0.N = 16 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sacc0_A; (try dsimp only)
    have hrun := (kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)).2
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sacc0_C; (try dsimp only)
      have hrun := (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2).2.2
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sacc0_B; (try dsimp only)
      have hrun := (kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2).2
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, Hoth⟩, Hg⟩
  isplitl [HS0 Hoth]
  · isplitl [HS0]
    · iexists _; iexact HS0
    iexact Hoth
  iexact Hg

end Cert.Kernel.Hand

end
-- ==== Proof.K.Region1.lean ====
import proofs.«151706_j103079215338_2_alg».proof.Proof.Gen.Kernel.Launch
import proofs.«151706_j103079215338_2_alg».proof.Proof.Gen.Kernel.Skeleton
import proofs.«151706_j103079215338_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second call's pipeline at given entry contents

The second call runs its body at the 16 points t of a 4 × 4 grid (batch b = t / 4, row block n = t % 4).
At each point the pipeline hands the body five staging buffers:

* window 0 — the [1,1024,1024] block (b, n, 0) of the activations;
* windows 1 and 2 — the two query weights, whole, brought in once at the first point;
* window 3 — the [1,1024,1024] block (b, 0, 0) of the key–value products, brought in when n = 0;
* window 4 — the output's block (b, n, 0), written back after every point.

Everything here is stated at a PARAMETER V, the contents of the TensorCore's buffers when the call is
entered.  An input buffer holds its window's block of V at every point, whether the block was brought in
at that point or was left there by an earlier one; the output buffer leaves the body holding out1_4 of
the four input blocks.  These facts, with the body's triple, are the pipeline's body obligation.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The body on whole staging buffers

The body reads four blocks — a [1,1024,1024] block of the activations, the two [1024,1024] query weights and a
[1,1024,1024] block of the key–value products —, each through the rectangle that is its whole buffer, and
writes ONE [1,1024,1024] block: the product of the two query projections, contracted against the key–value
block.  It also reads its output buffer once before writing it; that read is never used, so the output
buffer may hold anything when the body starts. -/

/-! ## The rectangles the body reads and writes through: each is its whole buffer -/

/-- The whole of a [1,1024,1024] buffer, as the rectangle at offset (0,0,0) of full extent. -/
abbrev whole3 : Rect S1x1024x1024 :=
  Rect.unit (s := S1x1024x1024) ![0, 0, 0] S1x1024x1024.size inb_S1x1024x1024_S1x1024x1024_0_0_0

/-- The whole of a [1024,1024] buffer, as the rectangle at offset (0,0) of full extent. -/
abbrev whole2 : Rect S1024x1024 :=
  Rect.unit (s := S1024x1024) ![0, 0] S1024x1024.size inb_S1024x1024_S1024x1024_0_0

/-! ## What the body leaves in the output buffer -/

/-- The output buffer after the body, as a function of the four input blocks: the body's one store, whose
    payload is the body's arithmetic applied to the four blocks read through their whole rectangles. -/
def out1_4 (x0 : Vec F S1x1024x1024 .f32) (x1 x2 : Vec F S1024x1024 .bf16) (x3 : Vec F S1x1024x1024 .bf16) :
    Vec F S1x1024x1024 .f32 :=
  View.canon [⟨whole3, k1_pay1 (View.ld x0 whole3) (View.ld x1 whole2) (View.ld x2 whole2) (View.ld x3 whole3)⟩]

/-- The one store's rectangle is the whole buffer, so every index of the buffer lies in it. -/
theorem cover1_4 (p0 : Vec F S1x1024x1024 .f32) (y : S1x1024x1024.Idx) :
    ∃ pc ∈ ([⟨whole3, p0⟩] : List (View.Piece (Elt F) S1x1024x1024 .f32)), y ∈ pc.1.set :=
  View.cover_of_tiled [⟨whole3, p0⟩] S1x1024x1024.size (by rfl) y

/-! ## The body's triple -/

set_option maxHeartbeats 1000000 in
/-- The body, run on five whole staging buffers — the four inputs at contents x0 … x3, the output at any
    contents —, ends with the inputs as they were and the output at out1_4 of the inputs. -/
theorem sound_kernel1 (c : Dev nD) (E : Set ℕ) (i : grid1.Coords)
    (arg2 : Memref sig .tc .vmem S1x1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1x1024x1024 .bf16) (harg5 : arg5.IsWhole)
    (arg6 : Memref sig .tc .vmem S1x1024x1024 .f32) (harg6 : arg6.IsWhole)
    (x0 : Vec F S1x1024x1024 .f32) (x1 x2 : Vec F S1024x1024 .bf16) (x3 : Vec F S1x1024x1024 .bf16)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E
          (cc1__out_kernel i arg2 harg2 arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! # The pipeline at the entry contents -/

-- the contents of the TensorCore's buffers when the call is entered
variable (V : (c : Dev nD) → (b : Ref sig .tc) → Buf (Elt F) ((c : Thread nD τ).loc b))

/-! ## The windows' blocks -/

/-- Window w's block at point t, read off the window's array as the call finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## An input buffer holds its block at every point

For any proof data whose arrays are V's and whose body leaves an input block in place: at a point where
the block is brought in the buffer holds it by the transfer; at a point where it is not, the block index
is the previous point's, and so is the buffer.  No window here is clipped or ever idle. -/

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-! ## The pipeline's proof data -/

/-- The proof data of the second call on core c: the arrays as the call finds them; after the body at
    point t each input buffer still at its block and the output buffer at out1_4 of the four input
    blocks; the invariant that leaves the scoped rest and the generator register untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by
  dsimp only [dat1]

/-- Each input buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t: the invariant, what is owed, and the five current staging
    buffers, each whole at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the
    invariant and what is owed pass through unread. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.K.MainRun.lean ====
import proofs.«151706_j103079215338_2_alg».proof.Proof.K.Region0
import proofs.«151706_j103079215338_2_alg».proof.Proof.K.Region1

/-!
# The whole program: host lines, then the two pallas_calls

What the core's buffers hold at each boundary is a fold from the launch memory: the four host conversions, then the
first region's arrays at what its write-backs leave, then the second's. The program's run is the library's launch over
these three segments; its post reads EVERY unscoped buffer off the last fold — the arguments (unchanged: no host line
writes one, and each region hands its inputs back) and the result alike.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host conversions (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (the program's end). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The first argument is an input window of both regions: each hands it back as it found it, and no host line writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tend (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- The first pallas_call as a segment: entered from every unscoped buffer at the contents before it, left with its
    arrays at what the pipeline's write-backs leave and every other buffer as entered; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ emp
          ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call as a segment: entered from every unscoped buffer at the contents before it, left with its
    arrays at what the pipeline's write-backs leave and every other buffer as entered; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of the program terminates, nothing
    faulting, and the final memory holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the run read at the five arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.Kernel.Hand

end
-- ==== Proof.KI.Cases0.lean ====
import proofs.«151706_j103079215338_2_alg».proof.Proof.Gen.KernelIdeal.Launch
import proofs.«151706_j103079215338_2_alg».proof.Proof.Gen.KernelIdeal.Skeleton
import proofs.«151706_j103079215338_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first pallas_call (the key/value accumulation): blocks, control cases, scratch

The grid is 4 × 4: point `t` works on batch `t / 4` and on row tile `t % 4` (1024 rows of the 4096). The body adds the
tile's contribution `keyᵀ · value` to an accumulator kept in a scratch buffer across the four tiles of a batch: the
accumulator is zeroed on tile 0 and, on tile 3, written to the batch's output block. So the body runs in one of three
ways, by the tile number: 0 (zero, then accumulate), 1 or 2 (accumulate), 3 (accumulate, then store the output).
Everything here is stated at a parameter `V`: what the core's buffers hold when the region is entered.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether or not the pipeline fetched it there:
    where it was not fetched the block index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether or not the pipeline fetched it there:
    where it was not fetched the block index has not moved, so the block of the point before is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether or not the pipeline fetched it there:
    where it was not fetched the block index has not moved, so the block of the point before is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- "This is the first row tile of its batch": the condition under which the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last row tile of its batch": the condition under which the output block is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle: the inputs never, the output except on the last tile of a batch -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S1024x1024 .f32 := Memref.whole cc0_scratch0
/-- The accumulator as a view: what it holds is stated through it. -/
abbrev VS0 : View sig .tc .vmem S1024x1024 .f32 := scM0.view
/-- One staging buffer of the output window, through which its contents are stated (the choice does not matter). -/
abbrev VO0_3 : View sig .tc .vmem S1x1024x1024 .bf16 := (Memref.whole cc0_stg3_0 : Memref sig .tc .vmem S1x1024x1024 .bf16).view

/-- The scoped buffers of the core that this region neither stages through nor uses: the other region's staging
    buffers, each whole at some contents. They ride through every point untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- What the region may use besides its windows: the accumulator at some contents, the bystanders, and the core's
    generator register at some state. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

end Cert.KernelIdeal.Hand

end
-- ==== Proof.KI.Run0A.lean ====
import proofs.«151706_j103079215338_2_alg».proof.Proof.KI.Cases0

/-!
# The accumulation body run on the first row tile of a batch

The body's triple on whole memrefs, by symbolic execution of its memory operations: the inputs are handed back as
found, and each buffer the body stores into ends with the body's stores written over what it held — the list of
those stores (last first) is found by the run itself.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The zeroing branch taken, the storing branch not: the accumulator, at anything going in, is zeroed, the tile's
    contribution added and stored; the output's buffer (`xi3`) is not touched. -/
noncomputable def kernelRun0_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i)
    (x0 : Vec F S1x1024x1024 .f32) (x1 x2 : Vec F S1024x1024 .bf16) :
    { LS0 : List (View.Piece (Elt F) S1024x1024 .f32) //
      ∀ (xi3 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨?_, fun xi3 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run0B.lean ====
import proofs.«151706_j103079215338_2_alg».proof.Proof.KI.Cases0

/-!
# The accumulation body run on a middle row tile (tiles 1 and 2 of a batch)

The body's triple on whole memrefs, by symbolic execution of its memory operations: the inputs are handed back as
found, and each buffer the body stores into ends with the body's stores written over what it held — the list of
those stores (last first) is found by the run itself.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Neither branch taken: the body reads the three input blocks and the accumulator `xs0` and stores the new
    accumulator; the output's buffer (`xi3`) is not touched. -/
noncomputable def kernelRun0_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i)
    (x0 : Vec F S1x1024x1024 .f32) (x1 x2 : Vec F S1024x1024 .bf16) (xs0 : Vec F S1024x1024 .f32) :
    { LS0 : List (View.Piece (Elt F) S1024x1024 .f32) //
      ∀ (xi3 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨?_, fun xi3 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Run0C.lean ====
import proofs.«151706_j103079215338_2_alg».proof.Proof.KI.Cases0

/-!
# The accumulation body run on the last row tile of a batch

The body's triple on whole memrefs, by symbolic execution of its memory operations: the inputs are handed back as
found, and each buffer the body stores into ends with the body's stores written over what it held — the list of
those stores (last first) is found by the run itself.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The storing branch taken, the zeroing branch not: the tile's contribution is added to the accumulator `xs0` and
    stored, and the finished accumulator is stored into the output's buffer (at anything going in). -/
noncomputable def kernelRun0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i)
    (x0 : Vec F S1x1024x1024 .f32) (x1 x2 : Vec F S1024x1024 .bf16) (xs0 : Vec F S1024x1024 .f32) :
    Σ' (L3 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__kv_kernel i arg2 harg2 arg3 harg3 arg4 harg4 arg5 harg5 arg6 harg6) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Region0.lean ====
import proofs.«151706_j103079215338_2_alg».proof.Proof.KI.Run0A
import proofs.«151706_j103079215338_2_alg».proof.Proof.KI.Run0B
import proofs.«151706_j103079215338_2_alg».proof.Proof.KI.Run0C

/-!
# The first pallas_call: what each point leaves, the invariant, the body obligation

Per way of running (first tile, middle tile, last tile of a batch) the stores the run found are read back as the
contents of the accumulator and, on the last tile, of the output's buffer. Point by point, `outsAt0` carries the
accumulator from one point to the next; the region's invariant holds the accumulator at what the point before left
(before the first point: at anything); the proof data put the output's buffer at what the last tile stored.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each way of running leaves -/

/-- On the first tile the run's stores into the accumulator cover it. -/
theorem scover0_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i) (x0 : Vec F S1x1024x1024 .f32) (x1 x2 : Vec F S1024x1024 .bf16) (y : S1024x1024.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S1024x1024.size (by sl_kernel_rfl) y
/-- What the first tile leaves in the accumulator: its stores read back. -/
def sacc0_A (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i) (x0 : Vec F S1x1024x1024 .f32) (x1 x2 : Vec F S1024x1024 .bf16) : Vec F S1024x1024 .f32 :=
  VS0.read (Elt F) (VS0.writes (Elt F) VS0.junk (kernelRun0_A c i arg2 harg2 arg3 harg3 arg4 harg4 arg5 harg5 arg6 harg6 hc0 hc1 x0 x1 x2).1)

/-- On a middle tile the run's one store into the accumulator covers it. -/
theorem scover0_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i) (x0 : Vec F S1x1024x1024 .f32) (x1 x2 : Vec F S1024x1024 .bf16) (xs0 : Vec F S1024x1024 .f32) (y : S1024x1024.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S1024x1024.size (by sl_kernel_rfl) y
/-- What a middle tile leaves in the accumulator. -/
def sacc0_B (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i) (x0 : Vec F S1x1024x1024 .f32) (x1 x2 : Vec F S1024x1024 .bf16) (xs0 : Vec F S1024x1024 .f32) : Vec F S1024x1024 .f32 :=
  VS0.read (Elt F) (VS0.writes (Elt F) VS0.junk (kernelRun0_B c i arg2 harg2 arg3 harg3 arg4 harg4 arg5 harg5 arg6 harg6 hc0 hc1 x0 x1 x2 xs0).1)

/-- On the last tile the run's store into the output's buffer covers it, -/
theorem cover0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) (y : S1x1024x1024.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1x1024x1024.size (by sl_kernel_rfl) y
/-- and what it leaves there: the finished accumulator, in the output's format. -/
def out0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) : Vec F S1x1024x1024 .bf16 :=
  VO0_3.read (Elt F) (VO0_3.writes (Elt F) VO0_3.junk (kernelRun0_C c i arg2 harg2 arg3 harg3 arg4 harg4 arg5 harg5 arg6 harg6 hc0 hc1 x0 x1 x2 xs0).1)
/-- Its store into the accumulator covers it too, -/
theorem scover0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) (y : S1024x1024.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x1024.size (by sl_kernel_rfl) y
/-- and leaves the batch's whole sum there. -/
def sacc0_C (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) : Vec F S1024x1024 .f32 :=
  VS0.read (Elt F) (VS0.writes (Elt F) VS0.junk (kernelRun0_C c i arg2 harg2 arg3 harg3 arg4 harg4 arg5 harg5 arg6 harg6 hc0 hc1 x0 x1 x2 xs0).2.1)

/-- The output component at a point that stores nothing into the output's buffer: a placeholder nothing consults
    (there the buffer is neither written back nor read at the next point). -/
def idleOut0 : Vec F S1x1024x1024 .bf16 := VO0_3.read (Elt F) VO0_3.junk

/-! ## Point by point -/

/-- What the output's staging buffer and the accumulator hold after the body at position `n`: the way of running that the
    tile number selects, on the point's input blocks, a later tile of a batch starting from the accumulator the point
    before left. -/
def outsAt0 (c : Dev nD) : (n : ℕ) → n < cfg0.N → Vec F S1x1024x1024 .bf16 × Vec F S1024x1024 .f32
  | 0, hn => (idleOut0, sacc0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 4 = 0 then
      if h1 : (n + 1) % 4 = 3 then
        False.elim (by omega)
      else
        (idleOut0, sacc0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sacc0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (idleOut0, sacc0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a first tile. -/
theorem outsAt0_A (c : Dev nD) (t : Fin cfg0.N) (h0 : t.val % 4 = 0) (h1 : ¬t.val % 4 = 3) :
    outsAt0 V c t.val t.isLt = (idleOut0, sacc0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- `outsAt0` at a middle tile: over what the point before left. -/
theorem outsAt0_B (c : Dev nD) (t : Fin cfg0.N) (h0 : ¬t.val % 4 = 0) (h1 : ¬t.val % 4 = 3) :
    outsAt0 V c t.val t.isLt = (idleOut0, sacc0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: over what the point before left. -/
theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sacc0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point what the region may use, at anything; afterwards the accumulator at what
    the point before left in it, the bystanders and the generator register as they are. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- The pipeline's proof data on core `c`: the arrays as the region finds them; after the body at point `t` each input's
    buffer at its block and the output's at `outsAt0`'s first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the inputs' memrefs hold their blocks; the tile number says which way the body runs; the
    invariant hands it the accumulator at what the point before left (at anything on a first tile) and takes it back
    at this point's contents; an output buffer the point does not store into goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 16 := lt_of_lt_of_eq t.isLt (show cfg0.N = 16 from N_0)
  by_cases h0 : t.val % 4 = 0
  · have h1 : ¬t.val % 4 = 3 := by omega
    rw [Dat.leavesExact_idle (dat0 V c) 3 t (idleAt0_3 t (fun h => h1 ((hcond0_1 t).mp h))) (noFlush0_3 t (fun h => h1 ((hcond0_1 t).mp h)))]
    rw [outsAt0_A V c t h0 h1]
    unfold sacc0_A; (try dsimp only)
    have hrun := (kernelRun0_A c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t)).2
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat0 V c).leavesExact 3 t = owns (c : Thread nD τ) (ms0_3 t) fullShare ((dat0 V c).after 3 t) from by
        unfold Dat.leavesExact; rw [liveAt0_3 t ((hcond0_1 t).mpr h1)], after0_3]
      rw [outsAt0_C V c t h0 h1]
      unfold out0_C sacc0_C; (try dsimp only)
      have hrun := (kernelRun0_C c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2).2.2
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply (hrun Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold sacc0_B; (try dsimp only)
      have hrun := (kernelRun0_B c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2).2
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, Hoth⟩, Hg⟩
  isplitl [HS0 Hoth]
  · isplitl [HS0]
    · iexists _; iexact HS0
    iexact Hoth
  iexact Hg

end Cert.KernelIdeal.Hand

end
-- ==== Proof.KI.Region1.lean ====
import proofs.«151706_j103079215338_2_alg».proof.Proof.Gen.KernelIdeal.Launch
import proofs.«151706_j103079215338_2_alg».proof.Proof.Gen.KernelIdeal.Skeleton
import proofs.«151706_j103079215338_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second call's pipeline at given entry contents

The second call runs its body at the 16 points t of a 4 × 4 grid (batch b = t / 4, row block n = t % 4).
At each point the pipeline hands the body five staging buffers:

* window 0 — the [1,1024,1024] block (b, n, 0) of the activations;
* windows 1 and 2 — the two query weights, whole, brought in once at the first point;
* window 3 — the [1,1024,1024] block (b, 0, 0) of the key–value products, brought in when n = 0;
* window 4 — the output's block (b, n, 0), written back after every point.

Everything here is stated at a PARAMETER V, the contents of the TensorCore's buffers when the call is
entered.  An input buffer holds its window's block of V at every point, whether the block was brought in
at that point or was left there by an earlier one; the output buffer leaves the body holding out1_4 of
the four input blocks.  These facts, with the body's triple, are the pipeline's body obligation.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The body on whole staging buffers

The body reads four blocks — a [1,1024,1024] block of the activations, the two [1024,1024] query weights and a
[1,1024,1024] block of the key–value products —, each through the rectangle that is its whole buffer, and
writes ONE [1,1024,1024] block: the product of the two query projections, contracted against the key–value
block.  It also reads its output buffer once before writing it; that read is never used, so the output
buffer may hold anything when the body starts. -/

/-! ## The rectangles the body reads and writes through: each is its whole buffer -/

/-- The whole of a [1,1024,1024] buffer, as the rectangle at offset (0,0,0) of full extent. -/
abbrev whole3 : Rect S1x1024x1024 :=
  Rect.unit (s := S1x1024x1024) ![0, 0, 0] S1x1024x1024.size inb_S1x1024x1024_S1x1024x1024_0_0_0

/-- The whole of a [1024,1024] buffer, as the rectangle at offset (0,0) of full extent. -/
abbrev whole2 : Rect S1024x1024 :=
  Rect.unit (s := S1024x1024) ![0, 0] S1024x1024.size inb_S1024x1024_S1024x1024_0_0

/-! ## What the body leaves in the output buffer -/

/-- The output buffer after the body, as a function of the four input blocks: the body's one store, whose
    payload is the body's arithmetic applied to the four blocks read through their whole rectangles. -/
def out1_4 (x0 : Vec F S1x1024x1024 .f32) (x1 x2 : Vec F S1024x1024 .bf16) (x3 : Vec F S1x1024x1024 .bf16) :
    Vec F S1x1024x1024 .f32 :=
  View.canon [⟨whole3, k1_pay1 (View.ld x0 whole3) (View.ld x1 whole2) (View.ld x2 whole2) (View.ld x3 whole3)⟩]

/-- The one store's rectangle is the whole buffer, so every index of the buffer lies in it. -/
theorem cover1_4 (p0 : Vec F S1x1024x1024 .f32) (y : S1x1024x1024.Idx) :
    ∃ pc ∈ ([⟨whole3, p0⟩] : List (View.Piece (Elt F) S1x1024x1024 .f32)), y ∈ pc.1.set :=
  View.cover_of_tiled [⟨whole3, p0⟩] S1x1024x1024.size (by rfl) y

/-! ## The body's triple -/

set_option maxHeartbeats 1000000 in
/-- The body, run on five whole staging buffers — the four inputs at contents x0 … x3, the output at any
    contents —, ends with the inputs as they were and the output at out1_4 of the inputs. -/
theorem sound_kernel1 (c : Dev nD) (E : Set ℕ) (i : grid1.Coords)
    (arg2 : Memref sig .tc .vmem S1x1024x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1x1024x1024 .bf16) (harg5 : arg5.IsWhole)
    (arg6 : Memref sig .tc .vmem S1x1024x1024 .f32) (harg6 : arg6.IsWhole)
    (x0 : Vec F S1x1024x1024 .f32) (x1 x2 : Vec F S1024x1024 .bf16) (x3 : Vec F S1x1024x1024 .bf16)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E
          (cc1__out_kernel i arg2 harg2 arg3 harg3 arg4 harg4 arg5 harg5 arg6 harg6) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! # The pipeline at the entry contents -/

-- the contents of the TensorCore's buffers when the call is entered
variable (V : (c : Dev nD) → (b : Ref sig .tc) → Buf (Elt F) ((c : Thread nD τ).loc b))

/-! ## The windows' blocks -/

/-- Window w's block at point t, read off the window's array as the call finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-! ## An input buffer holds its block at every point

For any proof data whose arrays are V's and whose body leaves an input block in place: at a point where
the block is brought in the buffer holds it by the transfer; at a point where it is not, the block index
is the previous point's, and so is the buffer.  No window here is clipped or ever idle. -/

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t :=
  (dat.before_in_eq_fetched 0 rfl (fun _ => rfl) (fun _ _ _ => rfl)
      (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t :=
  (dat.before_in_eq_fetched 1 rfl (fun _ => rfl) (fun _ _ _ => rfl)
      (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t :=
  (dat.before_in_eq_fetched 2 rfl (fun _ => rfl) (fun _ _ _ => rfl)
      (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c)
    (hA : dat.A 3 = V c (Pipeline.arrRef spec1 3)) (hafter : ∀ t, dat.after 3 t = iblk1 V c 3 t)
    (t : Fin cfg1.N) (d) : dat.before 3 t d = iblk1 V c 3 t :=
  (dat.before_in_eq_fetched 3 rfl (fun _ => rfl) (fun _ _ _ => rfl)
      (fun t => by rw [hafter]; unfold Dat.blockOf iblk1; rw [hA]; try rfl) t d).trans
    (by unfold Dat.fetched Dat.blockOf iblk1; rw [hA]; try rfl)

/-! ## The pipeline's proof data -/

/-- The proof data of the second call on core c: the arrays as the call finds them; after the body at
    point t each input buffer still at its block and the output buffer at out1_4 of the four input
    blocks; the invariant that leaves the scoped rest and the generator register untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by
  dsimp only [dat1]

/-- Each input buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t: the invariant, what is owed, and the five current staging
    buffers, each whole at what the pipeline left in it. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body returns: the same, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies; the
    invariant and what is owed pass through unread. -/
theorem sound_body1 (c : Dev nD) (t : Fin cfg1.N) :
    bodyPre1 V c t ⊢ wp frame (wpE (defs₀ (F := F)) Variants.none c none) Set.univ (bodyAt1 t)
      (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.MainRun.lean ====
import proofs.«151706_j103079215338_2_alg».proof.Proof.KI.Region0
import proofs.«151706_j103079215338_2_alg».proof.Proof.KI.Region1

/-!
# The whole program: host lines, then the two pallas_calls

What the core's buffers hold at each boundary is a fold from the launch memory: the four host conversions, then the
first region's arrays at what its write-backs leave, then the second's. The program's run is the library's launch over
these three segments; its post reads EVERY unscoped buffer off the last fold — the arguments (unchanged: no host line
writes one, and each region hands its inputs back) and the result alike.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host conversions (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit (the program's end). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched -/

/-- The first argument is an input window of both regions: each hands it back as it found it, and no host line writes it. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tend (c : Dev nD) : sProp 𝕄 := iprop(StableHlo.held (c : Thread nD τ) (Pipeline.ucRefs τ sig) (W3 m ρ c) ∗ ∃ r, prngReg c r)

/-! ## The regions as segments -/

-- a library lemma stated over the pinned configuration unifies with the printed one only when unification may unfold
-- plain definitions in a metavariable's type
set_option backward.isDefEq.respectTransparency.types false in
/-- The first pallas_call as a segment: entered from every unscoped buffer at the contents before it, left with its
    arrays at what the pipeline's write-backs leave and every other buffer as entered; the generator register goes into
    the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ emp
          ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second pallas_call as a segment: entered from every unscoped buffer at the contents before it, left with its
    arrays at what the pipeline's write-backs leave and every other buffer as entered; the generator register goes into
    the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m ρ) () defs₀ 𝒱₀ L lv) :=
  [ .host (hseg hostOps0 hostOps0_sub hostOps0_noalloc (W0 m ρ)),
    .region (reg0 m ρ),
    .region (reg1 m ρ) ]
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of the program terminates, nothing
    faulting, and the final memory holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the run read at the five arguments. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.KI.Region0Pieces.lean ====
import proofs.«151706_j103079215338_2_alg».proof.Proof.KI.Region0
import Idealize.ShloMosaic.Lib.Pipeline.Value

/-!
# The first pallas_call: the stores the runs found, read back as the body's arithmetic

Each way of running leaves in the accumulator the body's one accumulation term — the tile's `keyᵀ · value` added to
what the accumulator held (on a first tile: to the zero block the body has just stored) — and, on a last tile, leaves in
the output's buffer that accumulator in the output's format.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator `xs0` plus the tile's contribution. -/
theorem sacc0_B_eq (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : ¬cond0_1 i) (x0 : Vec F S1x1024x1024 .f32) (x1 x2 : Vec F S1024x1024 .bf16) (xs0 : Vec F S1024x1024 .f32) :
    sacc0_B c i arg2 harg2 arg3 harg3 arg4 harg4 arg5 harg5 arg6 harg6 hc0 hc1 x0 x1 x2 xs0 = k0_pay2 x0 x1 x2 xs0 := by
  unfold sacc0_B
  rw [View.read_writes_eq_canon _ _ _ (scover0_B c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg4.read_unread, harg6.read_unread,
    View.ld_unit_zero (S := S1x1024x1024) hz3, View.ld_unit_zero (S := S1024x1024) hz2]

/-- A first tile: the zero block plus the tile's contribution (the body reads back the zero block it has just stored). -/
theorem sacc0_A_eq (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : cond0_0 i) (hc1 : ¬cond0_1 i) (x0 : Vec F S1x1024x1024 .f32) (x1 x2 : Vec F S1024x1024 .bf16) :
    sacc0_A c i arg2 harg2 arg3 harg3 arg4 harg4 arg5 harg5 arg6 harg6 hc0 hc1 x0 x1 x2 = k0_pay2 x0 x1 x2 (k0_pay1 (F := F)) := by
  unfold sacc0_A
  rw [View.read_writes_eq_canon _ _ _ (scover0_A c i arg2 harg2 arg3 harg3 arg4 harg4 arg5 harg5 arg6 harg6 hc0 hc1 x0 x1 x2)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, harg4.read_unread, harg6.read_unread,
    View.ld_unit_zero (S := S1x1024x1024) hz3, View.ld_unit_zero (S := S1024x1024) hz2]

/-- A last tile leaves in the accumulator the batch's whole sum, -/
theorem sacc0_C_eq (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) :
    sacc0_C c i arg2 harg2 arg3 harg3 arg4 harg4 arg5 harg5 arg6 harg6 hc0 hc1 x0 x1 x2 xs0 = k0_pay2 x0 x1 x2 xs0 := by
  unfold sacc0_C
  rw [View.read_writes_eq_canon _ _ _ (scover0_C c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S1x1024x1024) hz3, View.ld_unit_zero (S := S1024x1024) hz2]

/-- and in the output's buffer that sum, in the output's format. -/
theorem out0_C_eq (c : Dev nD) (i : grid0.Coords) (arg2 : Memref sig .tc .vmem S1x1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole) (hc0 : ¬cond0_0 i) (hc1 : cond0_1 i) (x0 : Vec F S1x1024x1024 .f32) (x1 x2 : Vec F S1024x1024 .bf16) (xs0 : Vec F S1024x1024 .f32) :
    out0_C c i arg2 harg2 arg3 harg3 arg4 harg4 arg5 harg5 arg6 harg6 hc0 hc1 x0 x1 x2 xs0 = k0_pay3 (k0_pay2 x0 x1 x2 xs0) := by
  unfold out0_C
  rw [View.read_writes_eq_canon _ _ _ (cover0_C c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1024x1024) _ hz2]
  simp only [View.readAt_eq_ld, harg2.read_unread, harg3.read_unread, harg4.read_unread, harg6.read_unread,
    View.ld_unit_zero (S := S1x1024x1024) hz3, View.ld_unit_zero (S := S1024x1024) hz2]

end Cert.KernelIdeal.Hand

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibRowsContracted.lean ====
/-
  A product of two matrices stored by rows, contracted over their rows, on the extended reals, read at an entry.

  A `tpu.matmul` of a [K, m] operand by a [K, n] operand — axis 0 of the left contracted with axis 0 of the right, no batch
  axis, as `einsum "nd,ne->de"` lowers: the transpose of the left operand times the right — accumulated into the f32
  zero splat, read at (p, q), is  Σ_k l(k, p) · r(k, q).  The dimension record is taken in literal form (the six axis
  lists written out over any well-formedness witness), so a printed record of that form is an instance by unfolding its
  name.  The operands' formats are free: at the ideal values every format is the extended reals.
-/
import Idealize.ShloMosaic.PureOps.Ideal.Laws
import Idealize.ShloMosaic.Lib.ValueIdx

noncomputable section

namespace Cert.RowsContracted

open Idealize.ShloMosaic Idealize.ShloMosaic.ValueIdx

/-- The literal record of a [K, m]ᵀ × [K, n] product. -/
abbrev byRows {K m n : ℕ}
    (wf : DotDims.WF (⟨2, ![K, m]⟩ : Shape) (⟨2, ![K, n]⟩ : Shape) (⟨2, ![m, n]⟩ : Shape) [0] [0] [1] [1] [] []) :
    DotDims (⟨2, ![K, m]⟩ : Shape) (⟨2, ![K, n]⟩ : Shape) (⟨2, ![m, n]⟩ : Shape) :=
  { lhsContracting := [0], rhsContracting := [0], lhsNonContracting := [1], rhsNonContracting := [1],
    lhsBatch := [], rhsBatch := [], wf := wf }

section
variable {K m n : ℕ}
  (wf : DotDims.WF (⟨2, ![K, m]⟩ : Shape) (⟨2, ![K, n]⟩ : Shape) (⟨2, ![m, n]⟩ : Shape) [0] [0] [1] [1] [] [])
  (j : (⟨2, ![m, n]⟩ : Shape).Idx) (k : (byRows wf).contr.Idx)

/-- The left operand's row is the contracted coordinate. -/
theorem lhs_row : ((byRows wf).lhsIdx j k 0).val = (k ⟨0, Nat.one_pos⟩).val :=
  (byRows wf).lhsIdx_val_of_single rfl j k

/-- The left operand's column is the result's row. -/
theorem lhs_col : ((byRows wf).lhsIdx j k 1).val = (j 0).val := by
  unfold DotDims.lhsIdx
  rw [dif_neg (show ¬(1 : Fin (⟨2, ![K, m]⟩ : Shape).rank) ∈ (byRows wf).lhsBatch from List.not_mem_nil),
    dif_pos (show (1 : Fin (⟨2, ![K, m]⟩ : Shape).rank) ∈ (byRows wf).lhsNonContracting from List.mem_singleton.mpr rfl)]
  rfl

/-- The right operand's row is the contracted coordinate. -/
theorem rhs_row : ((byRows wf).rhsIdx j k 0).val = (k ⟨0, Nat.one_pos⟩).val :=
  (byRows wf).rhsIdx_val_of_single rfl j k

/-- The right operand's column is the result's column. -/
theorem rhs_col : ((byRows wf).rhsIdx j k 1).val = (j 1).val := by
  unfold DotDims.rhsIdx
  rw [dif_neg (show ¬(1 : Fin (⟨2, ![K, n]⟩ : Shape).rank) ∈ (byRows wf).rhsBatch from List.not_mem_nil),
    dif_pos (show (1 : Fin (⟨2, ![K, n]⟩ : Shape).rank) ∈ (byRows wf).rhsNonContracting from List.mem_singleton.mpr rfl)]
  rfl

end

/-- The sum over the record's contraction index, re-indexed by the contracted row. -/
theorem contr_sum {K m n : ℕ}
    (wf : DotDims.WF (⟨2, ![K, m]⟩ : Shape) (⟨2, ![K, n]⟩ : Shape) (⟨2, ![m, n]⟩ : Shape) [0] [0] [1] [1] [] [])
    (l : (⟨2, ![K, m]⟩ : Shape).Idx → EReal) (r : (⟨2, ![K, n]⟩ : Shape).Idx → EReal) (p : Fin m) (q : Fin n) :
    (∑ k : (byRows wf).contr.Idx, l ((byRows wf).lhsIdx (ix2 p q) k) * r ((byRows wf).rhsIdx (ix2 p q) k))
      = ∑ k : Fin K, l (ix2 k p) * r (ix2 k q) := by
  rw [← Equiv.sum_comp (contrEquiv1 (byRows wf) K rfl rfl).symm]
  refine Finset.sum_congr rfl fun k _ => ?_
  have hk := contrEquiv1_symm_val (byRows wf) K rfl rfl k
  have el : (byRows wf).lhsIdx (ix2 p q) ((contrEquiv1 (byRows wf) K rfl rfl).symm k) = ix2 k p :=
    funext fun a => Fin.ext (by
      match a with
      | ⟨0, _⟩ => exact (lhs_row wf _ _).trans hk
      | ⟨1, _⟩ => exact lhs_col wf _ _)
  have er : (byRows wf).rhsIdx (ix2 p q) ((contrEquiv1 (byRows wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product of this form into the zero splat: the sum over the rows of the two operands'
    entries in columns p and q. -/
theorem matmul_zero_apply {K m n : ℕ} {φ₁ φ₂ : FTy}
    (wf : DotDims.WF (⟨2, ![K, m]⟩ : Shape) (⟨2, ![K, n]⟩ : Shape) (⟨2, ![m, n]⟩ : Shape) [0] [0] [1] [1] [] [])
    (prec : Option ContractPrecision)
    (l : FVec Ideal (⟨2, ![K, m]⟩ : Shape) φ₁) (r : FVec Ideal (⟨2, ![K, n]⟩ : Shape) φ₂) (p : Fin m) (q : Fin n) :
    FloatOps.matmul (byRows wf) prec l r (constant (⟨2, ![m, n]⟩ : Shape) .f32 0x00000000#32) (ix2 p q)
      = ∑ k : Fin K, l (ix2 k p) * r (ix2 k q) := by
  rw [Ideal.matmul_constant_zero_apply]
  exact contr_sum wf l r p q

end Cert.RowsContracted

end
-- ==== Proof.KI.Region0Pay.lean ====
import proofs.«151706_j103079215338_2_alg».proof.Proof.KI.Region0Pieces
import proofs.«151706_j103079215338_2_alg».proof.Proof.LibPlainMatmul
import proofs.«151706_j103079215338_2_alg».proof.Proof.LibRowsContracted
import Idealize.ShloMosaic.Lib.ValueIdx
import Idealize.ShloMosaic.Lib.ValueLayout
import Idealize.ShloMosaic.Lib.Pipeline.Value
import Idealize.ShloMosaic.PureOps.Ideal.Laws

/-!
# The accumulation body's arithmetic on the extended reals, entry by entry

On a tile of 1024 rows `x0` and the two weight matrices, the body forms the tile's keys and values (each row times a
weight matrix), contracts them over the tile's rows, and adds the result to the accumulator: entry (d, e) of the new
accumulator is the old entry plus  Σ_q key(q, d) · value(q, e).  Format changes are the identity on the extended reals.
-/

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- Row `q` of a tile times column `d` of a weight matrix. -/
def tproj (x0 : Vec Ideal S1x1024x1024 .f32) (w : Vec Ideal S1024x1024 .bf16) (q d : Fin 1024) : EReal :=
  ∑ k : Fin 1024, x0 (ix3 (0 : Fin 1) q k) * w (ix2 k d)

/-- The block the body zeroes the accumulator with is zero everywhere. -/
theorem pay1_apply (j : S1024x1024.Idx) : k0_pay1 (F := Ideal) j = 0 := by
  unfold k0_pay1
  rw [shapeCast_self]
  exact Ideal.ofBits_zero_f32

/-- A tile's keys (or values): the tile, cast to a matrix and read in the weights' format, times the weights. -/
theorem tile_matmul_apply (wf) (x0 : Vec Ideal S1x1024x1024 .f32) (w : Vec Ideal S1024x1024 .bf16) (q d : Fin 1024) :
    (matmul (Cert.PlainMatmul.plain (m := 1024) (K := 1024) (n := 1024) wf) none
        (truncf .bf16 (shapeCast S1024x1024 x0 shapeCasts_S1x1024x1024_S1024x1024) bitsLt_bf16_f32 : FVec Ideal S1024x1024 .bf16)
        (shapeCast S1024x1024 w shapeCasts_S1024x1024_S1024x1024 : FVec Ideal S1024x1024 .bf16)
        (constant S1024x1024 .f32 0x00000000#32) : FVec Ideal S1024x1024 .f32) (ix2 q d) = tproj x0 w q d := by
  refine (Cert.PlainMatmul.matmul_zero_apply wf none _ _ q d).trans ?_
  unfold tproj
  refine Finset.sum_congr rfl fun k _ => ?_
  rw [truncf_apply, shapeCast_1ab_ab_apply, shapeCast_self]

/-- The accumulation: entry (d, e) of what the body stores is the accumulator's entry plus the tile's contribution. -/
theorem pay2_apply (x0 : Vec Ideal S1x1024x1024 .f32) (x1 x2 : Vec Ideal S1024x1024 .bf16) (acc : Vec Ideal S1024x1024 .f32)
    (d e : Fin 1024) :
    k0_pay2 x0 x1 x2 acc (ix2 d e) = acc (ix2 d e) + ∑ q : Fin 1024, tproj x0 x1 q d * tproj x0 x2 q e := by
  unfold k0_pay2
  rw [shapeCast_self, addf_apply]
  congr 1
  refine (Cert.RowsContracted.matmul_zero_apply (K := 1024) (m := 1024) (n := 1024) _ none _ _ d e).trans ?_
  refine Finset.sum_congr rfl fun q _ => ?_
  rw [truncf_apply, truncf_apply]
  congr 1
  · exact tile_matmul_apply _ x0 x1 q d
  · exact tile_matmul_apply _ x0 x2 q e

/-- The output block is the accumulator, entry by entry. -/
theorem pay3_apply (acc : Vec Ideal S1024x1024 .f32) (u : Fin 1) (d e : Fin 1024) :
    k0_pay3 acc (ix3 u d e) = acc (ix2 d e) := by
  unfold k0_pay3
  rw [shapeCast_ab_1ab_apply, truncf_apply]

end Cert.KernelIdeal.Hand

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.Spec.lean ====
/-
  The mathematics of the kernel and of its reference, stated once, over the literal shapes, with no program in sight.

  Linear attention without a softmax. From a batch of sequences `x` (4 sequences, 4096 rows, 1024 features) and four
  square weight matrices, four projections `proj x w` are formed, each the matrix product of every row of `x` with `w`.
  The key and value projections are contracted over ALL the 4096 rows of a sequence into one 1024 × 1024 matrix `kv` per
  sequence; the two query projections are multiplied entry by entry and the product is applied to that matrix.
  Every value is an extended real and every operation the exact one, so each of the three stages is a finite sum of
  products and nothing else.

  The one law stated here, `kv_blocks`, regroups the contraction over the 4096 rows into the four consecutive blocks of
  1024 rows summed one after the other. It uses associativity and commutativity of the addition only, so it holds at
  the infinities as well and asks nothing of the inputs.
-/
import Idealize.ShloMosaic.PureOps.Ideal
import Idealize.ShloMosaic.Lib.ValueIdx
import Mathlib.Algebra.BigOperators.Fin
import proofs.«151706_j103079215338_2_alg».proof.Proof.LibSumBlocks

noncomputable section

open scoped BigOperators

namespace Cert.LinAttn

open Idealize.ShloMosaic

/-- The shape of the sequences and of the result: 4 sequences of 4096 rows of 1024 features. -/
abbrev X : Shape := ⟨3, ![4, 4096, 1024]⟩
/-- The shape of a weight matrix. -/
abbrev Wt : Shape := ⟨2, ![1024, 1024]⟩

/-- A projection: row `n` of sequence `b` times column `d` of the weight matrix. -/
def proj (x : X.Idx → EReal) (w : Wt.Idx → EReal) (b : Fin 4) (n : Fin 4096) (d : Fin 1024) : EReal :=
  ∑ k : Fin 1024, x (ValueIdx.ix3 b n k) * w (ValueIdx.ix2 k d)

/-- The key-value matrix of sequence `b`: the key and value projections contracted over all 4096 rows. -/
def kv (x : X.Idx → EReal) (wk wv : Wt.Idx → EReal) (b : Fin 4) (d e : Fin 1024) : EReal :=
  ∑ n : Fin 4096, proj x wk b n d * proj x wv b n e

/-- The result: the entrywise product of the two query projections of a row, applied to its sequence's key-value matrix. -/
def out (x : X.Idx → EReal) (wql wqr wk wv : Wt.Idx → EReal) (b : Fin 4) (n : Fin 4096) (e : Fin 1024) : EReal :=
  ∑ d : Fin 1024, (proj x wql b n d * proj x wqr b n d) * kv x wk wv b d e

/-- The result as one array, a function of the five argument arrays. -/
def G (x : X.Idx → EReal) (wql wqr wk wv : Wt.Idx → EReal) : X.Idx → EReal :=
  fun i => out x wql wqr wk wv (i 0) (i 1) (i 2)

/-- At an index given by its coordinates the result array is `out` at those coordinates. -/
theorem G_ix3 (x : X.Idx → EReal) (wql wqr wk wv : Wt.Idx → EReal) (b : Fin 4) (n : Fin 4096) (e : Fin 1024) :
    G x wql wqr wk wv (ValueIdx.ix3 b n e) = out x wql wqr wk wv b n e := rfl

/-- The contraction over the 4096 rows of a sequence is the sum, over the four consecutive blocks of 1024 rows, of each
    block's contraction: row `q` of block `s` is row `s * 1024 + q` of the sequence. -/
theorem kv_blocks (x : X.Idx → EReal) (wk wv : Wt.Idx → EReal) (b : Fin 4) (d e : Fin 1024) :
    kv x wk wv b d e = ∑ s : Fin 4, ∑ q : Fin 1024,
      proj x wk b ⟨s.val * 1024 + q.val, by omega⟩ d * proj x wv b ⟨s.val * 1024 + q.val, by omega⟩ e := by
  unfold kv
  rw [Cert.Lib.SumBlocks.sum_fin_blocks 4 1024 (by norm_num) (fun n : Fin 4096 => proj x wk b n d * proj x wv b n e),
    ← Fin.sum_univ_eq_sum_range (fun s => ∑ q : Fin 1024,
      Cert.Lib.SumBlocks.onNat (fun n : Fin 4096 => proj x wk b n d * proj x wv b n e) (s * 1024 + q.val)) 4]
  refine Finset.sum_congr rfl fun s _ => Finset.sum_congr rfl fun q _ => ?_
  exact Cert.Lib.SumBlocks.onNat_of_lt _ _ (by omega)

end Cert.LinAttn

end
-- ==== Proof.KI.Region0Value.lean ====
import proofs.«151706_j103079215338_2_alg».proof.Proof.KI.Region0Pay
import proofs.«151706_j103079215338_2_alg».proof.Proof.Spec

/-!
# What the first pallas_call leaves in its result array

Point `t` works on sequence `t / 4` and on rows `(t % 4) · 1024 …` of it. By induction on the point, the accumulator
after point `t` holds the contributions of row tiles `0 … t % 4` of sequence `t / 4`; the last tile of a sequence stores
the four tiles' sum into the sequence's block of the result, the only points that write a block back; and those four
blocks cover the result array. So the array ends holding, at (b, d, e), the four tiles' contributions summed in order.
-/

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

open Cert.LinAttn (proj)

variable (V : (c : Dev nD) → (b : Ref sig .tc) → Buf (Elt Ideal) ((c : Thread nD τ).loc b))

/-! ## The index maps, decided over the grid -/

theorem idx0_0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 3) = t.val / 4 ∧ win0_3.index t (1 : Fin 3) = 0
    ∧ win0_3.index t (2 : Fin 3) = 0 :=
  (by decide +kernel : ∀ t : Fin grid0.N, _)

/-! ## The input blocks, read at coordinates -/

/-- Row `q` of the tile of point `t` is row `(t % 4) · 1024 + q` of sequence `t / 4`. -/
theorem iblk0_0_apply (c : Dev nD) (t : Fin cfg0.N) (q k : Fin 1024) (hb : t.val / 4 < 4) (hn : t.val % 4 * 1024 + q.val < 4096) :
    (iblk0 V c 0 t : Vec Ideal S1x1024x1024 .f32) (ix3 (0 : Fin 1) q k)
      = V c main_arg0 (ix3 (⟨t.val / 4, hb⟩ : Fin 4) (⟨t.val % 4 * 1024 + q.val, hn⟩ : Fin 4096) k) := by
  unfold iblk0
  show V c main_arg0 (((cfg0.win 0).blk t).view.emb (ix3 (0 : Fin 1) q k)) = _
  refine congrArg (V c main_arg0) ?_
  obtain ⟨e0, e1, e2⟩ := idx0_0 t
  funext a; apply Fin.ext
  match a with
  | ⟨0, _⟩ => show win0_0.index t (0 : Fin 3) * 1 + 1 * 0 = t.val / 4; omega
  | ⟨1, _⟩ => show win0_0.index t (1 : Fin 3) * 1024 + 1 * q.val = t.val % 4 * 1024 + q.val; omega
  | ⟨2, _⟩ => show win0_0.index t (2 : Fin 3) * 1024 + 1 * k.val = k.val; omega

/-- The key weights' block is the whole matrix at every point, -/
theorem iblk0_1_apply (c : Dev nD) (t : Fin cfg0.N) (k d : Fin 1024) :
    (iblk0 V c 1 t : Vec Ideal S1024x1024 .bf16) (ix2 k d) = V c main_v0 (ix2 k d) := by
  unfold iblk0
  show V c main_v0 (((cfg0.win 1).blk t).view.emb (ix2 k d)) = _
  refine congrArg (V c main_v0) ?_
  obtain ⟨e0, e1⟩ := idx0_1 t
  funext a; apply Fin.ext
  match a with
  | ⟨0, _⟩ => show win0_1.index t (0 : Fin 2) * 1024 + 1 * k.val = k.val; omega
  | ⟨1, _⟩ => show win0_1.index t (1 : Fin 2) * 1024 + 1 * d.val = d.val; omega

/-- and so is the value weights'. -/
theorem iblk0_2_apply (c : Dev nD) (t : Fin cfg0.N) (k d : Fin 1024) :
    (iblk0 V c 2 t : Vec Ideal S1024x1024 .bf16) (ix2 k d) = V c main_v1 (ix2 k d) := by
  unfold iblk0
  show V c main_v1 (((cfg0.win 2).blk t).view.emb (ix2 k d)) = _
  refine congrArg (V c main_v1) ?_
  obtain ⟨e0, e1⟩ := idx0_2 t
  funext a; apply Fin.ext
  match a with
  | ⟨0, _⟩ => show win0_2.index t (0 : Fin 2) * 1024 + 1 * k.val = k.val; omega
  | ⟨1, _⟩ => show win0_2.index t (1 : Fin 2) * 1024 + 1 * d.val = d.val; omega

/-! ## One tile's contribution, through the arrays -/

/-- The contribution of row tile `j` of sequence `b` to entry (d, e): keys times values over the tile's 1024 rows
    (zero outside the grid, where nothing reads it). -/
def tileSum (x : Cert.LinAttn.X.Idx → EReal) (wk wv : Cert.LinAttn.Wt.Idx → EReal) (b j : ℕ) (d e : Fin 1024) : EReal :=
  if h : b < 4 ∧ j < 4 then
    ∑ q : Fin 1024, proj x wk ⟨b, h.1⟩ ⟨j * 1024 + q.val, by omega⟩ d * proj x wv ⟨b, h.1⟩ ⟨j * 1024 + q.val, by omega⟩ e
  else 0

/-- What the body adds at point `t` is the contribution of tile `t % 4` of sequence `t / 4`. -/
theorem tile_eq (c : Dev nD) (t : Fin cfg0.N) (d e : Fin 1024) :
    (∑ q : Fin 1024, tproj (iblk0 V c 0 t) (iblk0 V c 1 t) q d * tproj (iblk0 V c 0 t) (iblk0 V c 2 t) q e)
      = tileSum (V c main_arg0) (V c main_v0) (V c main_v1) (t.val / 4) (t.val % 4) d e := by
  have hN : t.val < 16 := lt_of_lt_of_eq t.isLt (show cfg0.N = 16 from N_0)
  have hb : t.val / 4 < 4 := by omega
  have hj : t.val % 4 < 4 := by omega
  unfold tileSum
  rw [dif_pos ⟨hb, hj⟩]
  refine Finset.sum_congr rfl fun q _ => ?_
  have hq : q.val < 1024 := q.isLt
  unfold tproj proj
  congr 1
  · refine Finset.sum_congr rfl fun k _ => ?_
    rw [iblk0_0_apply V c t q k hb (by omega), iblk0_1_apply]
  · refine Finset.sum_congr rfl fun k _ => ?_
    rw [iblk0_0_apply V c t q k hb (by omega), iblk0_2_apply]

/-! ## The accumulator, point by point -/

/-- A first tile leaves its own contribution. -/
theorem acc_first (c : Dev nD) (t : Fin cfg0.N) (h0 : t.val % 4 = 0) (h1 : ¬t.val % 4 = 3) (d e : Fin 1024) :
    (outsAt0 V c t.val t.isLt).2 (ix2 d e)
      = tileSum (V c main_arg0) (V c main_v0) (V c main_v1) (t.val / 4) (t.val % 4) d e := by
  rw [outsAt0_A V c t h0 h1]
  dsimp only
  rw [sacc0_A_eq c (grid0.coords t) (ms0_0 t) (hs0_0 t) (ms0_1 t) (hs0_1 t) (ms0_2 t) (hs0_2 t) (ms0_3 t) (hs0_3 t) scM0 (Memref.isWhole_whole _) ((hcond0_0 t).mpr h0) (fun h => h1 ((hcond0_1 t).mp h)) (iblk0 V c 0 t) (iblk0 V c 1 t) (iblk0 V c 2 t),
    pay2_apply (iblk0 V c 0 t) (iblk0 V c 1 t) (iblk0 V c 2 t) (k0_pay1 (F := Ideal)) d e, pay1_apply, zero_add, tile_eq V c t d e]

/-- A middle tile adds its contribution to what the point before left. -/
theorem acc_middle (c : Dev nD) (t : Fin cfg0.N) (h0 : ¬t.val % 4 = 0) (h1 : ¬t.val % 4 = 3) (d e : Fin 1024) :
    (outsAt0 V c t.val t.isLt).2 (ix2 d e)
      = (outsAt0 V c (t.val - 1) (Nat.lt_of_le_of_lt (Nat.sub_le _ _) t.isLt)).2 (ix2 d e) + tileSum (V c main_arg0) (V c main_v0) (V c main_v1) (t.val / 4) (t.val % 4) d e := by
  rw [outsAt0_B V c t h0 h1]
  dsimp only
  rw [sacc0_B_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2,
    pay2_apply (iblk0 V c 0 t) (iblk0 V c 1 t) (iblk0 V c 2 t) (outsAt0 V c (t.val - 1) (Nat.lt_of_le_of_lt (Nat.sub_le _ _) t.isLt)).2 d e, tile_eq V c t d e]

/-- So does a last tile, -/
theorem acc_last (c : Dev nD) (t : Fin cfg0.N) (h0 : ¬t.val % 4 = 0) (h1 : t.val % 4 = 3) (d e : Fin 1024) :
    (outsAt0 V c t.val t.isLt).2 (ix2 d e)
      = (outsAt0 V c (t.val - 1) (Nat.lt_of_le_of_lt (Nat.sub_le _ _) t.isLt)).2 (ix2 d e) + tileSum (V c main_arg0) (V c main_v0) (V c main_v1) (t.val / 4) (t.val % 4) d e := by
  rw [outsAt0_C V c t h0 h1]
  dsimp only
  rw [sacc0_C_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
    pay2_apply (iblk0 V c 0 t) (iblk0 V c 1 t) (iblk0 V c 2 t) (outsAt0 V c (t.val - 1) (Nat.lt_of_le_of_lt (Nat.sub_le _ _) t.isLt)).2 d e, tile_eq V c t d e]

/-- which also leaves the new accumulator in the output's buffer. -/
theorem out_last (c : Dev nD) (t : Fin cfg0.N) (h0 : ¬t.val % 4 = 0) (h1 : t.val % 4 = 3) (u : Fin 1) (d e : Fin 1024) :
    (outsAt0 V c t.val t.isLt).1 (ix3 u d e)
      = (outsAt0 V c (t.val - 1) (Nat.lt_of_le_of_lt (Nat.sub_le _ _) t.isLt)).2 (ix2 d e) + tileSum (V c main_arg0) (V c main_v0) (V c main_v1) (t.val / 4) (t.val % 4) d e := by
  rw [outsAt0_C V c t h0 h1]
  dsimp only
  rw [out0_C_eq c (grid0.coords t) (ms0_0 t) (hs0_0 t) (ms0_1 t) (hs0_1 t) (ms0_2 t) (hs0_2 t) (ms0_3 t) (hs0_3 t) scM0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
    pay3_apply (k0_pay2 (iblk0 V c 0 t) (iblk0 V c 1 t) (iblk0 V c 2 t) (outsAt0 V c (t.val - 1) (Nat.lt_of_le_of_lt (Nat.sub_le _ _) t.isLt)).2) u d e,
    pay2_apply (iblk0 V c 0 t) (iblk0 V c 1 t) (iblk0 V c 2 t) (outsAt0 V c (t.val - 1) (Nat.lt_of_le_of_lt (Nat.sub_le _ _) t.isLt)).2 d e, tile_eq V c t d e]

/-- After point `n` the accumulator holds the contributions of tiles `0 … n % 4` of sequence `n / 4`. -/
theorem acc_eq (c : Dev nD) : ∀ (n : ℕ) (hn : n < cfg0.N) (d e : Fin 1024),
    (outsAt0 V c n hn).2 (ix2 d e)
      = ∑ j ∈ Finset.range (n % 4 + 1), tileSum (V c main_arg0) (V c main_v0) (V c main_v1) (n / 4) j d e
  | 0, hn, d, e => by
    rw [acc_first V c ⟨0, hn⟩ (Nat.zero_mod 4) (by show ¬0 % 4 = 3; decide) d e]
    show tileSum _ _ _ (0 / 4) (0 % 4) d e = ∑ j ∈ Finset.range (0 % 4 + 1), tileSum _ _ _ (0 / 4) j d e
    simp
  | n + 1, hn, d, e => by
    have hN : n + 1 < 16 := lt_of_lt_of_eq hn (show cfg0.N = 16 from N_0)
    by_cases h0 : (n + 1) % 4 = 0
    · have h1 : ¬(n + 1) % 4 = 3 := by omega
      rw [acc_first V c ⟨n + 1, hn⟩ h0 h1 d e]
      show tileSum _ _ _ ((n + 1) / 4) ((n + 1) % 4) d e = _
      rw [h0]; simp
    · have e1 : (n + 1) / 4 = n / 4 := by omega
      have e2 : (n + 1) % 4 = n % 4 + 1 := by omega
      have ih := acc_eq c n (Nat.lt_of_succ_lt hn) d e
      have step : (outsAt0 V c (n + 1) hn).2 (ix2 d e)
          = (outsAt0 V c n (Nat.lt_of_succ_lt hn)).2 (ix2 d e)
            + tileSum (V c main_arg0) (V c main_v0) (V c main_v1) ((n + 1) / 4) ((n + 1) % 4) d e := by
        by_cases h1 : (n + 1) % 4 = 3
        · exact acc_last V c ⟨n + 1, hn⟩ h0 h1 d e
        · exact acc_middle V c ⟨n + 1, hn⟩ h0 h1 d e
      rw [step, ih, e1, e2]
      exact (Finset.sum_range_succ _ _).symm

/-- On the last tile of a sequence the output's buffer is left holding the four tiles' sum. -/
theorem out_eq (c : Dev nD) (t : Fin cfg0.N) (h3 : t.val % 4 = 3) (u : Fin 1) (d e : Fin 1024) :
    (outsAt0 V c t.val t.isLt).1 (ix3 u d e)
      = ∑ j ∈ Finset.range 4, tileSum (V c main_arg0) (V c main_v0) (V c main_v1) (t.val / 4) j d e := by
  have h0 : ¬t.val % 4 = 0 := by omega
  have hN : t.val < 16 := lt_of_lt_of_eq t.isLt (show cfg0.N = 16 from N_0)
  rw [out_last V c t h0 h3 u d e, acc_eq V c (t.val - 1) _ d e]
  have e1 : (t.val - 1) / 4 = t.val / 4 := by omega
  have e2 : (t.val - 1) % 4 + 1 = 3 := by omega
  rw [e1, e2, h3, ← Finset.sum_range_succ]

/-! ## The result array -/

/-- What the region leaves in its result: at (b, d, e) the four row tiles' contributions of sequence `b`, in order. -/
def KV (x : Cert.LinAttn.X.Idx → EReal) (wk wv : Cert.LinAttn.Wt.Idx → EReal) : S4x1024x1024.Idx → EReal :=
  fun i => ∑ j ∈ Finset.range 4, tileSum x wk wv (i 0).val j (i 1) (i 2)

/-- What a writing point writes back is its block of that array. -/
theorem flushed0_eq (c : Dev nD) (t : Fin cfg0.N) (hf : (cfg0.win 3).flush t = true) :
    (dat0 V c).flushed 3 t = ((cfg0.win 3).blk t).view.read (Elt Ideal) (KV (V c main_arg0) (V c main_v0) (V c main_v1)) := by
  have h3 : t.val % 4 = 3 := (flush0_3 t).mp hf
  show (cfg0.win 3).cut (grid0.coords t) ((dat0 V c).after 3 t) = _
  rw [after0_3]
  funext y
  obtain ⟨u, d, e, rfl⟩ : ∃ (u : Fin 1) (d e : Fin 1024), y = ix3 u d e := ⟨y 0, y 1, y 2, eq_ix3 y⟩
  show (outsAt0 V c t.val t.isLt).1 (ix3 u d e) = KV _ _ _ (((cfg0.win 3).blk t).view.emb (ix3 u d e))
  rw [out_eq V c t h3 u d e]
  obtain ⟨e0, e1, e2⟩ := idx0_3 t
  have hu : u.val = 0 := by omega
  have hemb : ((cfg0.win 3).blk t).view.emb (ix3 u d e)
      = ix3 (⟨t.val / 4, by have := lt_of_lt_of_eq t.isLt (show cfg0.N = 16 from N_0); omega⟩ : Fin 4) d e := by
    funext a; apply Fin.ext
    match a with
    | ⟨0, _⟩ => show win0_3.index t (0 : Fin 3) * 1 + 1 * u.val = t.val / 4; omega
    | ⟨1, _⟩ => show win0_3.index t (1 : Fin 3) * 1024 + 1 * d.val = d.val; omega
    | ⟨2, _⟩ => show win0_3.index t (2 : Fin 3) * 1024 + 1 * e.val = e.val; omega
  rw [hemb]
  rfl

/-- An index of the result is in point `t`'s block iff each coordinate is in the block's range on its axis. -/
theorem mem_blk0_3 (t : Fin cfg0.N) (i : S4x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v4).slice (win0_3.rect t)).set ↔ _
  rw [View.set_slice_whole, Rect.mem_set_unit]
  exact Iff.rfl

/-- THE ARRAY the region leaves: sequence `b`'s block is written by the last tile of `b`, point `4 b + 3`. -/
theorem final0 (c : Dev nD) :
    (dat0 V c).arrAt 3 cfg0.N = KV (V c main_arg0) (V c main_v0) (V c main_v1) :=
  (dat0 V c).arrAt_eq_of_cover 3 (KV (V c main_arg0) (V c main_v0) (V c main_v1)) (flushed0_eq V c) fun i => by
    have hi0 : (i 0).val < 4 := (i 0).isLt
    have hi1 : (i 1).val < 1024 := (i 1).isLt
    have hi2 : (i 2).val < 1024 := (i 2).isLt
    have hlt : 4 * (i 0).val + 3 < cfg0.N := lt_of_lt_of_eq (by omega : 4 * (i 0).val + 3 < 16) (N_0.symm : (16 : ℕ) = cfg0.N)
    refine ⟨⟨4 * (i 0).val + 3, hlt⟩, (flush0_3 _).mpr (by show (4 * (i 0).val + 3) % 4 = 3; omega), ?_⟩
    rw [mem_blk0_3]
    obtain ⟨e0, e1, e2⟩ := idx0_3 ⟨4 * (i 0).val + 3, hlt⟩
    have e0' : win0_3.index ⟨4 * (i 0).val + 3, hlt⟩ (0 : Fin 3) = (i 0).val := by rw [e0]; show (4 * (i 0).val + 3) / 4 = _; omega
    intro a
    match a with
    | ⟨0, _⟩ => show win0_3.index _ (0 : Fin 3) * 1 ≤ (i 0).val ∧ (i 0).val < win0_3.index _ (0 : Fin 3) * 1 + 1; omega
    | ⟨1, _⟩ => show win0_3.index _ (1 : Fin 3) * 1024 ≤ (i 1).val ∧ (i 1).val < win0_3.index _ (1 : Fin 3) * 1024 + 1024; omega
    | ⟨2, _⟩ => show win0_3.index _ (2 : Fin 3) * 1024 ≤ (i 2).val ∧ (i 2).val < win0_3.index _ (2 : Fin 3) * 1024 + 1024; omega

/-- The four tiles' contributions in order are the whole contraction over the 4096 rows. -/
theorem KV_eq_kv (x : Cert.LinAttn.X.Idx → EReal) (wk wv : Cert.LinAttn.Wt.Idx → EReal) (b : Fin 4) (d e : Fin 1024) :
    KV x wk wv (ix3 b d e) = Cert.LinAttn.kv x wk wv b d e := by
  rw [Cert.LinAttn.kv_blocks]
  show (∑ j ∈ Finset.range 4, tileSum x wk wv b.val j d e) = _
  rw [Finset.sum_range]
  refine Finset.sum_congr rfl fun s _ => ?_
  unfold tileSum
  rw [dif_pos ⟨b.isLt, s.isLt⟩]

end Cert.KernelIdeal.Hand

end
-- ==== Proof.KI.Region1Value.lean ====
import proofs.«151706_j103079215338_2_alg».proof.Proof.KI.Region1
import proofs.«151706_j103079215338_2_alg».proof.Proof.LibPlainMatmul
import Idealize.ShloMosaic.Lib.Pipeline.Value
import Idealize.ShloMosaic.Lib.ValueLayout

/-!
# The array the second call leaves, at the extended reals

At the extended reals a change of float format is the identity and a product into a zero accumulator is a
plain finite sum.  So the second call's body, on its four blocks, computes at (p, q) of the output block

  Σ_d (Σ_k x(p, k) · wl(k, d)) · (Σ_k x(p, k) · wr(k, d)) · kv(d, q).

Each block is a rectangle of its array: the activation and output blocks at point t are rows
1024 · (t % 4) … of batch t / 4, the key–value block is batch t / 4, the weights are whole.  The 16 output
blocks tile the output array (row r of batch b lies in the block of point 4 · b + r / 1024), so after all
write-backs the array holds, at (b, n, e),

  Σ_d (Σ_k x(b, n, k) · wl(k, d)) · (Σ_k x(b, n, k) · wr(k, d)) · kv(b, d, e)

of the arrays as the call finds them.  Nothing beyond the definitions of the operations is used: no sum
is reordered and no law of the extended reals is applied.
-/

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

/-! ## The body's arithmetic at one entry -/

/-- One of the body's products into the zero accumulator, at entry (p, q): the sum over the contracted axis. -/
theorem mm_apply (l r : FVec Ideal S1024x1024 .bf16) (p q : Fin 1024) :
    matmul (F := Ideal) dot_S1024x1024_S1024x1024_S1024x1024_1_0_0_1_n_n none l r (constant S1024x1024 .f32 0x00000000#32) (ix2 p q)
      = ∑ k : Fin 1024, l (ix2 p k) * r (ix2 k q) :=
  Cert.PlainMatmul.matmul_zero_apply dot_S1024x1024_S1024x1024_S1024x1024_1_0_0_1_n_n_wf none l r p q

/-- A projection of the activation block by a weight, at entry (p, d): the block's leading unit axis is dropped,
    the change of format is the identity on extended reals, and the weight's cast to its own shape is the weight. -/
theorem proj_apply (v0 : FVec Ideal S1x1024x1024 .f32) (w : FVec Ideal S1024x1024 .bf16) (p d : Fin 1024) :
    matmul (F := Ideal) dot_S1024x1024_S1024x1024_S1024x1024_1_0_0_1_n_n none
        (truncf .bf16 (shapeCast S1024x1024 v0 shapeCasts_S1x1024x1024_S1024x1024) bitsLt_bf16_f32)
        (shapeCast S1024x1024 w shapeCasts_S1024x1024_S1024x1024)
        (constant S1024x1024 .f32 0x00000000#32) (ix2 p d)
      = ∑ k : Fin 1024, v0 (ix3 (0 : Fin 1) p k) * w (ix2 k d) := by
  refine (mm_apply _ _ p d).trans ?_
  refine Finset.sum_congr rfl fun k _ => ?_
  exact congrArg₂ (· * ·) (shapeCast_1ab_ab_apply v0 _ p k) (congrFun (shapeCast_self w _) (ix2 k d))

/-- The body's payload at entry (u, p, q) of the output block: the product of the two query projections of
    row p, contracted over d against column q of the key–value block. -/
theorem pay_apply (v0 : Vec Ideal S1x1024x1024 .f32) (v3 v6 : Vec Ideal S1024x1024 .bf16)
    (v11 : Vec Ideal S1x1024x1024 .bf16) (u : Fin 1) (p q : Fin 1024) :
    k1_pay1 v0 v3 v6 v11 (ix3 u p q)
      = ∑ d : Fin 1024, ((∑ k : Fin 1024, v0 (ix3 (0 : Fin 1) p k) * v3 (ix2 k d))
                          * (∑ k : Fin 1024, v0 (ix3 (0 : Fin 1) p k) * v6 (ix2 k d)))
                        * v11 (ix3 (0 : Fin 1) d q) := by
  unfold k1_pay1
  refine (shapeCast_ab_1ab_apply _ _ u p q).trans ?_
  refine (mm_apply _ _ p q).trans ?_
  refine Finset.sum_congr rfl fun d _ => ?_
  exact congrArg₂ (· * ·) (congrArg₂ (· * ·) (proj_apply v0 v3 p d) (proj_apply v0 v6 p d))
    (shapeCast_1ab_ab_apply v11 _ d q)

/-! ## The blocks, read where the output block's entry says

A block's entry sits in its array at (block index × block size + the coordinate inside the block) on every
axis.  The index maps' values are decided once over the 16 grid points. -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The five index maps at point t: the output block is (t / 4, t % 4, 0); the activation block is the
    same; each weight is its one block (0, 0); the key–value block is (t / 4, 0, 0). -/
theorem index_facts : ∀ t : Fin cfg1.N,
    win1_4.index t (0 : Fin 3) = t.val / 4 ∧ win1_4.index t (1 : Fin 3) = t.val % 4 ∧ win1_4.index t (2 : Fin 3) = 0
    ∧ win1_0.index t (0 : Fin 3) = t.val / 4 ∧ win1_0.index t (1 : Fin 3) = t.val % 4 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 4 ∧ win1_3.index t (1 : Fin 3) = 0 ∧ win1_3.index t (2 : Fin 3) = 0 :=
  (by decide +kernel : ∀ t : Fin grid1.N, _)

/-- The second call's result, entry by entry, as a function of the four arrays it reads: at (b, n, e) the two
    query projections of row (b, n) of the activations x, multiplied, contracted over d against the
    key–value products kv at (b, d, e). -/
def outSpec (x : S4x4096x1024.Idx → EReal) (wl wr : S1024x1024.Idx → EReal) (kv : S4x1024x1024.Idx → EReal) :
    S4x4096x1024.Idx → EReal := fun i =>
  ∑ d : Fin 1024,
    ((∑ k : Fin 1024, x (ix3 (i 0 : Fin 4) (i 1 : Fin 4096) k) * wl (ix2 k d))
      * (∑ k : Fin 1024, x (ix3 (i 0 : Fin 4) (i 1 : Fin 4096) k) * wr (ix2 k d)))
    * kv (ix3 (i 0 : Fin 4) d (i 2 : Fin 1024))

/-- The same, read at an entry. -/
theorem outSpec_apply (x : S4x4096x1024.Idx → EReal) (wl wr : S1024x1024.Idx → EReal)
    (kv : S4x1024x1024.Idx → EReal) (i : S4x4096x1024.Idx) :
    outSpec x wl wr kv i
      = ∑ d : Fin 1024,
          ((∑ k : Fin 1024, x (ix3 (i 0 : Fin 4) (i 1 : Fin 4096) k) * wl (ix2 k d))
            * (∑ k : Fin 1024, x (ix3 (i 0 : Fin 4) (i 1 : Fin 4096) k) * wr (ix2 k d)))
          * kv (ix3 (i 0 : Fin 4) d (i 2 : Fin 1024)) := rfl

section Blocks
variable (V : (c : Dev nD) → (b : Ref sig .tc) → Buf (Elt Ideal) ((c : Thread nD τ).loc b))

/-- The activation block at point t, at (u, p, k), is the activations at (b, r, k) when b is the block's batch
    and r = 1024 · (t % 4) + p. -/
theorem xblk_apply (c : Dev nD) (t : Fin cfg1.N) (u : Fin 1) (p k : Fin 1024) (b : Fin 4) (r : Fin 4096)
    (hb : b.val = t.val / 4) (hr : r.val = t.val % 4 * 1024 + p.val) :
    @Eq EReal (iblk1 V c 0 t (ix3 u p k)) (V c main_arg0 (ix3 b r k)) := by
  obtain ⟨-, -, -, e0, e1, e2, -⟩ := index_facts t
  unfold iblk1
  rw [View.read_apply]
  show V c main_arg0 _ = V c main_arg0 _
  congr 1
  funext a
  apply Fin.ext
  match a with
  | ⟨0, _⟩ => show win1_0.index t (0 : Fin 3) * 1 + 1 * u.val = b.val; omega
  | ⟨1, _⟩ => show win1_0.index t (1 : Fin 3) * 1024 + 1 * p.val = r.val; omega
  | ⟨2, _⟩ => show win1_0.index t (2 : Fin 3) * 1024 + 1 * k.val = k.val; omega

/-- The left query weight's block is the weight. -/
theorem wlblk_apply (c : Dev nD) (t : Fin cfg1.N) (k d : Fin 1024) :
    @Eq EReal (iblk1 V c 1 t (ix2 k d)) (V c main_v2 (ix2 k d)) := by
  obtain ⟨-, -, -, -, -, -, e0, e1, -⟩ := index_facts t
  unfold iblk1
  rw [View.read_apply]
  show V c main_v2 _ = V c main_v2 _
  congr 1
  funext a
  apply Fin.ext
  match a with
  | ⟨0, _⟩ => show win1_1.index t (0 : Fin 2) * 1024 + 1 * k.val = k.val; omega
  | ⟨1, _⟩ => show win1_1.index t (1 : Fin 2) * 1024 + 1 * d.val = d.val; omega

/-- The right query weight's block is the weight. -/
theorem wrblk_apply (c : Dev nD) (t : Fin cfg1.N) (k d : Fin 1024) :
    @Eq EReal (iblk1 V c 2 t (ix2 k d)) (V c main_v3 (ix2 k d)) := by
  obtain ⟨-, -, -, -, -, -, -, -, e0, e1, -⟩ := index_facts t
  unfold iblk1
  rw [View.read_apply]
  show V c main_v3 _ = V c main_v3 _
  congr 1
  funext a
  apply Fin.ext
  match a with
  | ⟨0, _⟩ => show win1_2.index t (0 : Fin 2) * 1024 + 1 * k.val = k.val; omega
  | ⟨1, _⟩ => show win1_2.index t (1 : Fin 2) * 1024 + 1 * d.val = d.val; omega

/-- The key–value block at point t, at (u, d, q), is the key–value products at (b, d, q) when b is the
    block's batch. -/
theorem kvblk_apply (c : Dev nD) (t : Fin cfg1.N) (u : Fin 1) (d q : Fin 1024) (b : Fin 4)
    (hb : b.val = t.val / 4) :
    @Eq EReal (iblk1 V c 3 t (ix3 u d q)) (V c main_v4 (ix3 b d q)) := by
  obtain ⟨-, -, -, -, -, -, -, -, -, -, e0, e1, e2⟩ := index_facts t
  unfold iblk1
  rw [View.read_apply]
  show V c main_v4 _ = V c main_v4 _
  congr 1
  funext a
  apply Fin.ext
  match a with
  | ⟨0, _⟩ => show win1_3.index t (0 : Fin 3) * 1 + 1 * u.val = b.val; omega
  | ⟨1, _⟩ => show win1_3.index t (1 : Fin 3) * 1024 + 1 * d.val = d.val; omega
  | ⟨2, _⟩ => show win1_3.index t (2 : Fin 3) * 1024 + 1 * q.val = q.val; omega

/-! ## The array the call leaves -/

/-- The second call's result as its four operand arrays find it. -/
abbrev outArr (c : Dev nD) : S4x4096x1024.Idx → EReal :=
  outSpec (V c main_arg0) (V c main_v2) (V c main_v3) (V c main_v4)

/-- The body's payload on the four blocks of point t, at (u, p, q), is the result's entry at any index i of the
    array whose coordinates are the block's: batch t / 4, row 1024 · (t % 4) + p, column q. -/
theorem pay_blocks (c : Dev nD) (t : Fin cfg1.N) (u : Fin 1) (p q : Fin 1024) (i : S4x4096x1024.Idx)
    (h0 : (i 0).val = t.val / 4) (h1 : (i 1).val = t.val % 4 * 1024 + p.val) (h2 : (i 2).val = q.val) :
    k1_pay1 (iblk1 V c 0 t) (iblk1 V c 1 t) (iblk1 V c 2 t) (iblk1 V c 3 t) (ix3 u p q) = outArr V c i := by
  refine (pay_apply (iblk1 V c 0 t) (iblk1 V c 1 t) (iblk1 V c 2 t) (iblk1 V c 3 t) u p q).trans ?_
  refine Eq.trans ?_ (outSpec_apply (V c main_arg0) (V c main_v2) (V c main_v3) (V c main_v4) i).symm
  have hq : q = (i 2 : Fin 1024) := Fin.ext h2.symm
  refine Finset.sum_congr rfl fun d _ => ?_
  refine congrArg₂ (fun a b : EReal => a * b) (congrArg₂ (fun a b : EReal => a * b) ?_ ?_) ?_
  · exact Finset.sum_congr rfl fun k _ => congrArg₂ (fun a b : EReal => a * b)
      (xblk_apply V c t 0 p k (i 0) (i 1) h0 h1) (wlblk_apply V c t k d)
  · exact Finset.sum_congr rfl fun k _ => congrArg₂ (fun a b : EReal => a * b)
      (xblk_apply V c t 0 p k (i 0) (i 1) h0 h1) (wrblk_apply V c t k d)
  · exact (kvblk_apply V c t 0 d q (i 0) h0).trans (congrArg (fun z : Fin 1024 => (V c main_v4 : S4x1024x1024.Idx → EReal) (ix3 (i 0 : Fin 4) d z)) hq)

/-- What point t writes back is block t of the result. -/
theorem flushed1_4_eq (c : Dev nD) (t : Fin cfg1.N) :
    (dat1 (F := Ideal) V c).flushed 4 t = ((cfg1.win 4).blk t).view.read (Elt Ideal) (outArr V c) := by
  obtain ⟨e0, e1, e2, -⟩ := index_facts t
  show (cfg1.win 4).cut (grid1.coords t) ((dat1 V c).after 4 t) = _
  rw [after1_4]
  unfold out1_4
  rw [View.canon_unit_zero zeros3]
  simp only [View.ld_unit_zero (S := S1x1024x1024) zeros3, View.ld_unit_zero (S := S1024x1024) zeros2]
  funext j
  obtain ⟨u, p, q, rfl⟩ : ∃ (u : Fin 1) (p q : Fin 1024), j = ix3 u p q := ⟨j 0, j 1, j 2, eq_ix3 j⟩
  rw [View.read_apply]
  refine pay_blocks V c t u p q _ ?_ ?_ ?_
  · show win1_4.index t (0 : Fin 3) * 1 + 1 * u.val = t.val / 4; omega
  · show win1_4.index t (1 : Fin 3) * 1024 + 1 * p.val = t.val % 4 * 1024 + p.val; omega
  · show win1_4.index t (2 : Fin 3) * 1024 + 1 * q.val = q.val; omega

/-- An index of the output array is in point t's block iff each coordinate is in the block's range. -/
theorem mem_blk1_4 (t : Fin cfg1.N) (i : S4x4096x1024.Idx) :
    i ∈ ((cfg1.win 4).blk t).view.set ↔ ∀ a : Fin 3, win1_4.index t a * S1x1024x1024.size a ≤ (i a).val
      ∧ (i a).val < win1_4.index t a * S1x1024x1024.size a + S1x1024x1024.size a := by
  show i ∈ ((View.whole main_v5).slice (win1_4.rect t)).set ↔ _
  rw [View.set_slice_whole, Rect.mem_set_unit]
  exact Iff.rfl

/-- Every index of the output array is in some point's block: row r of batch b is in the block of the
    point 4 · b + r / 1024. -/
theorem cover1_out (i : S4x4096x1024.Idx) :
    ∃ t : Fin cfg1.N, (cfg1.win 4).flush t = true ∧ i ∈ ((cfg1.win 4).blk t).view.set := by
  have hN : grid1.N = 16 := N_1
  have hi0 : (i 0).val < 4 := (i 0).isLt
  have hi1 : (i 1).val < 4096 := (i 1).isLt
  have hi2 : (i 2).val < 1024 := (i 2).isLt
  let t : Fin cfg1.N := ⟨(i 0).val * 4 + (i 1).val / 1024, by show _ < grid1.N; omega⟩
  have ht : t.val = (i 0).val * 4 + (i 1).val / 1024 := rfl
  obtain ⟨e0, e1, e2, -⟩ := index_facts t
  refine ⟨t, flush1_4 t, ?_⟩
  rw [mem_blk1_4]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 1024 ≤ (i 1).val ∧ (i 1).val < win1_4.index t (1 : Fin 3) * 1024 + 1024
    omega
  | ⟨2, _⟩ =>
    show win1_4.index t (2 : Fin 3) * 1024 ≤ (i 2).val ∧ (i 2).val < win1_4.index t (2 : Fin 3) * 1024 + 1024
    omega

/-- THE ARRAY the second call leaves in its result buffer after all 16 write-backs. -/
theorem final1 (c : Dev nD) :
    (dat1 (F := Ideal) V c).arrAt 4 cfg1.N
      = outSpec (V c main_arg0) (V c main_v2) (V c main_v3) (V c main_v4) :=
  (dat1 (F := Ideal) V c).arrAt_eq_of_cover 4 (outArr V c) (fun t _ => flushed1_4_eq V c t) cover1_out

end Blocks

end Cert.KernelIdeal.Hand

end
-- ==== Proof.KI.KernelValue.lean ====
import proofs.«151706_j103079215338_2_alg».proof.Proof.KI.MainRun
import proofs.«151706_j103079215338_2_alg».proof.Proof.KI.Region0Value
import proofs.«151706_j103079215338_2_alg».proof.Proof.KI.Region1Value
import proofs.«151706_j103079215338_2_alg».proof.Proof.Spec
import Idealize.ShloMosaic.Lib.StableHlo.Run

/-!
# The idealized kernel's result as a function of its arguments

On the extended reals the four host conversions change nothing; the first pallas_call leaves the key-value matrices
(the four row tiles' contributions in order, which is the whole contraction over the rows); the second applies the
gated queries to them. Joined along the program's boundaries, the result array is the specification's function of the
five argument arrays.
-/

set_option maxRecDepth 16384

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The buffers at the first region's entry -/

theorem V1_arg0 (c : Dev nD) : (V1 m ρ c main_arg0 : S4x4096x1024.Idx → EReal) = m ((c : Thread nD τ).loc main_arg0) := by
  dsimp only [V1, W1, W0, hostOps0]; after_results
theorem V1_v0 (c : Dev nD) : (V1 m ρ c main_v0 : S1024x1024.Idx → EReal) = m ((c : Thread nD τ).loc main_arg3) := by
  dsimp only [V1, W1, W0, hostOps0]; after_results; rfl
theorem V1_v1 (c : Dev nD) : (V1 m ρ c main_v1 : S1024x1024.Idx → EReal) = m ((c : Thread nD τ).loc main_arg4) := by
  dsimp only [V1, W1, W0, hostOps0]; after_results; rfl
theorem V1_v2 (c : Dev nD) : (V1 m ρ c main_v2 : S1024x1024.Idx → EReal) = m ((c : Thread nD τ).loc main_arg1) := by
  dsimp only [V1, W1, W0, hostOps0]; after_results; rfl
theorem V1_v3 (c : Dev nD) : (V1 m ρ c main_v3 : S1024x1024.Idx → EReal) = m ((c : Thread nD τ).loc main_arg2) := by
  dsimp only [V1, W1, W0, hostOps0]; after_results; rfl

/-! ## The buffers at the second region's entry -/

theorem V2_arg0 (c : Dev nD) : (V2 m ρ c main_arg0 : S4x4096x1024.Idx → EReal) = m ((c : Thread nD τ).loc main_arg0) :=
  ((W2_arr m ρ c 0).trans (((dat0 (V1 m ρ) c).arrAt_in 0 rfl _).trans (A_eq0 (V1 m ρ) c 0))).trans (V1_arg0 m ρ c)
theorem V2_v2 (c : Dev nD) : (V2 m ρ c main_v2 : S1024x1024.Idx → EReal) = m ((c : Thread nD τ).loc main_arg1) :=
  (W2_of_ne m ρ c main_v2 (by decide)).trans (V1_v2 m ρ c)
theorem V2_v3 (c : Dev nD) : (V2 m ρ c main_v3 : S1024x1024.Idx → EReal) = m ((c : Thread nD τ).loc main_arg2) :=
  (W2_of_ne m ρ c main_v3 (by decide)).trans (V1_v3 m ρ c)
/-- The first region's result: the key-value matrices of the arguments. -/
theorem V2_v4 (c : Dev nD) : (V2 m ρ c main_v4 : S4x1024x1024.Idx → EReal)
    = KV (m ((c : Thread nD τ).loc main_arg0)) (m ((c : Thread nD τ).loc main_arg3)) (m ((c : Thread nD τ).loc main_arg4)) := by
  refine ((W2_arr m ρ c 3).trans (final0 (V1 m ρ) c)).trans ?_
  rw [V1_arg0 m ρ c, V1_v0 m ρ c, V1_v1 m ρ c]

/-! ## The result -/

/-- The program's result buffer ends holding the specification's function of the five arguments. -/
theorem result_eq (c : Dev nD) : (W3 m ρ c (Proc.devRef .tc main_v5) : S4x4096x1024.Idx → EReal)
    = Cert.LinAttn.G (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W3_arr m ρ c 4).trans (final1 (V2 m ρ) c)).trans ?_
  rw [V2_arg0 m ρ c, V2_v2 m ρ c, V2_v3 m ρ c, V2_v4 m ρ c]
  funext i
  obtain ⟨b, n, e, rfl⟩ : ∃ (b : Fin 4) (n : Fin 4096) (e : Fin 1024), i = ix3 b n e := ⟨i 0, i 1, i 2, eq_ix3 i⟩
  rw [outSpec_apply, Cert.LinAttn.G_ix3]
  unfold Cert.LinAttn.out
  refine Finset.sum_congr rfl fun d _ => ?_
  rw [KV_eq_kv]
  rfl

/-- THE RUN, READ: the result at the specification's function of the arguments, the arguments unchanged. -/
theorem run_value : θ_run defs (onTc (τ := τ) (main (F := Ideal))) ⟨m, fun _ => 0, ρ⟩ (fun r => ∀ c : Dev nD,
      r.2.mem ((c.tc : Thread nD τ).loc main_v5) = Cert.LinAttn.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v5 (by decide))).trans (result_eq m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩) (run_all m ρ)

end Cert.KernelIdeal.Hand

end
-- ==== Proof.RefValue.lean ====
import proofs.«151706_j103079215338_2_alg».proof.Proof.Gen.ReferenceIdeal.Read
import proofs.«151706_j103079215338_2_alg».proof.Proof.Spec

/-!
  The reference's result, read one operation at a time, is the specification's function of the arguments.

  The reference is seven whole-array operations. Four matrix products of the sequences with a weight matrix are the four
  projections. Their entrywise product is the product of the two query projections. The product that contracts the
  ROW axis of the key and value projections, sequence by sequence, is the key-value matrix. The last product contracts
  the feature axis of the query product against the key-value matrix. Each is read at one entry, given by its
  coordinates, as a finite sum of products; the indices the sums run through are identified with the specification's
  by comparing coordinates, and no law of arithmetic is used at all.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LinAttn

/-! ## The indices the contractions run through, by coordinates -/

/-- Entry `k` of row `n` of sequence `b`: where a product with a weight matrix reads the sequences. -/
theorem row_entry {e : Fin 1024} (b : Fin 4) (n : Fin 4096) (k : Fin 1024) :
    lidx_main_v0 (ix3 b n e) k = ix3 b n k :=
  funext fun a => by match a with | ⟨0, _⟩ => rfl | ⟨1, _⟩ => rfl | ⟨2, _⟩ => rfl

/-- Entry `k` of column `d`: where a product with a weight matrix reads the weights. -/
theorem col_entry (b : Fin 4) (n : Fin 4096) (d : Fin 1024) (k : Fin 1024) :
    ridx_main_v0 (ix3 b n d) k = ix2 k d :=
  funext fun a => by match a with | ⟨0, _⟩ => rfl | ⟨1, _⟩ => rfl

/-- Row `n`, feature `d` of sequence `b`: where the contraction over rows reads the key projection. -/
theorem key_entry (b : Fin 4) (d e : Fin 1024) (n : Fin 4096) :
    lidx_main_v5 (ix3 b d e) n = ix3 b n d :=
  funext fun a => by match a with | ⟨0, _⟩ => rfl | ⟨1, _⟩ => rfl | ⟨2, _⟩ => rfl

/-- Row `n`, feature `e` of sequence `b`: where the contraction over rows reads the value projection. -/
theorem value_entry (b : Fin 4) (d e : Fin 1024) (n : Fin 4096) :
    ridx_main_v5 (ix3 b d e) n = ix3 b n e :=
  funext fun a => by match a with | ⟨0, _⟩ => rfl | ⟨1, _⟩ => rfl | ⟨2, _⟩ => rfl

/-- Feature `d` of row `n`: where the last contraction reads the query product. -/
theorem query_entry (b : Fin 4) (n : Fin 4096) (e d : Fin 1024) :
    lidx_main_v6 (ix3 b n e) d = ix3 b n d :=
  funext fun a => by match a with | ⟨0, _⟩ => rfl | ⟨1, _⟩ => rfl | ⟨2, _⟩ => rfl

/-- Entry `(d, e)` of sequence `b`'s matrix: where the last contraction reads the key-value matrix. -/
theorem kv_entry (b : Fin 4) (n : Fin 4096) (e d : Fin 1024) :
    ridx_main_v6 (ix3 b n e) d = ix3 b d e :=
  funext fun a => by match a with | ⟨0, _⟩ => rfl | ⟨1, _⟩ => rfl | ⟨2, _⟩ => rfl

/-! ## The seven operations, each at one entry -/

/-- A product of the sequences with a weight matrix is the projection. The four products of the reference are this
    one function of their operands. -/
theorem matmul_at (x : FVec Ideal S4x4096x1024 .f32) (w : FVec Ideal S1024x1024 .f32)
    (b : Fin 4) (n : Fin 4096) (d : Fin 1024) :
    val_main_v0 (F := Ideal) x w (ix3 b n d) = proj x w b n d := by
  rw [val_main_v0_apply]
  unfold proj
  refine Finset.sum_congr rfl fun k _ => ?_
  rw [row_entry, col_entry]

/-- The entrywise product of the two query projections. -/
theorem query_at (x : FVec Ideal S4x4096x1024 .f32) (wql wqr : FVec Ideal S1024x1024 .f32)
    (b : Fin 4) (n : Fin 4096) (d : Fin 1024) :
    val_main_v4 (F := Ideal) x wql wqr (ix3 b n d) = proj x wql b n d * proj x wqr b n d := by
  rw [val_main_v4_apply, Ideal.mulf_def, matmul_at]
  exact congrArg (proj x wql b n d * ·) (matmul_at x wqr b n d)

/-- The contraction of the key and value projections over the rows of a sequence is its key-value matrix. -/
theorem kv_at (x : FVec Ideal S4x4096x1024 .f32) (wk wv : FVec Ideal S1024x1024 .f32)
    (b : Fin 4) (d e : Fin 1024) :
    val_main_v5 (F := Ideal) x wk wv (ix3 b d e) = kv x wk wv b d e := by
  rw [val_main_v5_apply]
  unfold kv
  refine Finset.sum_congr rfl fun n _ => ?_
  rw [key_entry, value_entry]
  exact congrArg₂ (· * ·) (matmul_at x wk b n d) (matmul_at x wv b n e)

/-- The last product, at one entry, is the specification's result. -/
theorem out_at (x : FVec Ideal S4x4096x1024 .f32) (wql wqr wk wv : FVec Ideal S1024x1024 .f32)
    (b : Fin 4) (n : Fin 4096) (e : Fin 1024) :
    val_main_v6 (F := Ideal) x wql wqr wk wv (ix3 b n e) = out x wql wqr wk wv b n e := by
  rw [val_main_v6_apply]
  unfold out
  refine Finset.sum_congr rfl fun d _ => ?_
  rw [query_entry, kv_entry, query_at, kv_at]

/-! ## The reference's result is the specification -/

/-- The term the reference's run states for its result is the specification's array. -/
theorem result_eq (x : FVec Ideal S4x4096x1024 .f32) (wql wqr wk wv : FVec Ideal S1024x1024 .f32) :
    Host.dotGeneral dot_S4x4096x1024_S4x1024x1024_S4x4096x1024_2_1_1_2_0_0 none
        (mulf (Host.dotGeneral dot_S4x4096x1024_S1024x1024_S4x4096x1024_2_0_01_1_n_n none x wql)
          (Host.dotGeneral dot_S4x4096x1024_S1024x1024_S4x4096x1024_2_0_01_1_n_n none x wqr))
        (Host.dotGeneral dot_S4x4096x1024_S4x4096x1024_S4x1024x1024_1_1_2_2_0_0 none
          (Host.dotGeneral dot_S4x4096x1024_S1024x1024_S4x4096x1024_2_0_01_1_n_n none x wk)
          (Host.dotGeneral dot_S4x4096x1024_S1024x1024_S4x4096x1024_2_0_01_1_n_n none x wv))
      = Cert.LinAttn.G x wql wqr wk wv := by
  rw [val_main_v6_eq (F := Ideal) x wql wqr wk wv]
  funext i
  obtain ⟨b, n, e, rfl⟩ : ∃ (b : Fin 4) (n : Fin 4096) (e : Fin 1024), i = ix3 b n e := ⟨i 0, i 1, i 2, eq_ix3 i⟩
  exact out_at x wql wqr wk wv b n e

/-! ## The reference's run, with its result named by the specification -/

/-- Every weakly fair execution of the reference terminates with its result array the specification's function of the
    argument arrays as the run found them, and those arrays unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v6)
          = Cert.LinAttn.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono
    (fun _ h c => ⟨(h c).1.trans (result_eq _ _ _ _ _), (h c).2⟩)
    (Cert.ReferenceIdeal.Value.run (F := Ideal) m' ρ')

end Cert.ReferenceIdeal.RefValue

end
-- ==== Proof.RefFrame.lean ====
import proofs.«151706_j103079215338_2_alg».proof.Defs
import proofs.«151706_j103079215338_2_alg».proof.Proof.Gen.ReferenceIdeal.Run

/-!
  The reference runs and leaves its arguments as it found them: its run read back operation by operation, with what it
  says of the result dropped. The reference is seven whole-array operations on the host, none of which writes an
  argument array, and the statement needs nothing of the inputs, so the precondition is never opened.
-/

noncomputable section

namespace Cert.ReferenceIdeal.RefValue

open Idealize.ShloMosaic Idealize.SL.Sem

/-- The reference terminates on every weakly fair execution, without a fault, its five argument arrays unchanged. -/
theorem frame_ri [hReferenceIdeal : Cert.ReferenceIdeal.Facts] [hPre_finite_inputs : Cert.Pre_finite_inputs.Facts] :
    Cert.frame_ReferenceIdeal :=
  fun m ρ _ => (θ_run Cert.ReferenceIdeal.defs _ _).mono (fun _ h c => (h c).2)
    (Cert.ReferenceIdeal.Value.run (F := Ideal) m ρ)

end Cert.ReferenceIdeal.RefValue

end
-- ==== Proof.lean ====
/-
  A linear-attention kernel in two pallas_calls against its jnp reference, on the extended reals.

  From sequences `x` (4 sequences of 4096 rows of 1024 features) and four square weight matrices the reference forms
  four projections, contracts the key and value projections over all the rows of a sequence into one key-value matrix
  per sequence, multiplies the two query projections entry by entry, and applies the product to that matrix. The kernel
  does the same in two grids of 4 × 4 points: the first accumulates each sequence's key-value matrix over four tiles of
  1024 rows in a scratch buffer it keeps from one point to the next, and stores it on the last tile; the second computes
  the gated queries of a row tile and applies them to the sequence's matrix. On the extended reals every change of
  float format is the identity and every matrix product is a finite sum of products, so the two programs compute the
  same sums; the one law between them is that a sum over 4096 rows is the sum, over four consecutive blocks of 1024
  rows, of the blocks' sums — associativity and commutativity of the addition, which hold at the infinities too, so the
  inputs' finiteness is never used.

  The three frames: both readings of the kernel run through the same two-region launch (each region's body run once per
  way the grid position makes it branch; the accumulator carried by the region's invariant), and the reference's frame
  is its run with the result dropped. The idealization rewrote nothing, so there is nothing to preserve.
-/
import proofs.«151706_j103079215338_2_alg».proof.Defs
import proofs.«151706_j103079215338_2_alg».proof.Proof.Gen.Kernel
import proofs.«151706_j103079215338_2_alg».proof.Proof.Gen.KernelIdeal
import proofs.«151706_j103079215338_2_alg».proof.Proof.Gen.ReferenceIdeal
import proofs.«151706_j103079215338_2_alg».proof.Proof.Gen.Pre_finite_inputs
import proofs.«151706_j103079215338_2_alg».proof.Proof.K.MainRun
import proofs.«151706_j103079215338_2_alg».proof.Proof.KI.KernelValue
import proofs.«151706_j103079215338_2_alg».proof.Proof.RefValue
import proofs.«151706_j103079215338_2_alg».proof.Proof.RefFrame

noncomputable section

namespace Cert.Proof

open Idealize.ShloMosaic Idealize.SL.Sem

/-- The word-level kernel runs and leaves its arguments as launched. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- Both idealized programs end with the specification's function of their arguments, and the arguments agree. -/
theorem algebraic : Cert.algebraic_KernelIdeal_ReferenceIdeal := by
  intro m ρ m' ρ' _ hagree
  refine ⟨fun c => Cert.LinAttn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run_value m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, algebraic⟩

end Cert.Proof

end
